-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x32 : Shape := ⟨2, ![384, 32]⟩
abbrev S384 : Shape := ⟨1, ![384]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S384x32 : S_.BroadcastsInDim S384x32 (![] : Fin 0 → Fin S384x32.rank)
  reducesTo_S384x32_S_d0_1 : S384x32.ReducesTo [0, 1] S_

variable [Facts]

def fn {F : FTy → Type} [FloatOps F] (main_arg0 : FVec F S384x128 .f32) (main_arg1 : FVec F S384x32 .f32) (main_arg2 : IVec S384 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x32 .f32 := Host.absf main_arg1
  let main_cst_0 : FVec F S_ .f32 := constant S_ .f32 0x7F800000#32
  let main_v5 : FVec F S384x32 .f32 := broadcastInDim S384x32 ![] bcast_S_S384x32 main_cst_0
  let main_v6 : IVec S384x32 1 := cmpf .olt main_v4 main_v5
  let main_c_1 : IVec S_ 1 := constantI S_ 1 1#1
  let main_v7 : IVec S_ 1 := (fun x v => Host.reduce IntOp.andi x v reducesTo_S384x32_S_d0_1 h_S_) main_v6 main_c_1
  let main_v8 : IVec S_ 1 := andi main_v3 main_v7
  main_v8
-- ==== Kernel.lean ====
abbrev S384x128 : Shape := ⟨2, ![384, 128]⟩
abbrev S384x32 : Shape := ⟨2, ![384, 32]⟩
abbrev S384 : Shape := ⟨1, ![384]⟩
abbrev S384x1 : Shape := ⟨2, ![384, 1]⟩
abbrev S1x384 : Shape := ⟨2, ![1, 384]⟩
abbrev S1x1 : Shape := ⟨2, ![1, 1]⟩
abbrev S8x128 : Shape := ⟨2, ![8, 128]⟩
abbrev S8x1 : Shape := ⟨2, ![8, 1]⟩
abbrev S8 : Shape := ⟨1, ![8]⟩
abbrev S128x384 : Shape := ⟨2, ![128, 384]⟩
abbrev S8x384 : Shape := ⟨2, ![8, 384]⟩
abbrev S8x384x1 : Shape := ⟨3, ![8, 384, 1]⟩
abbrev S8x1x384 : Shape := ⟨3, ![8, 1, 384]⟩
abbrev S8x384x384 : Shape := ⟨3, ![8, 384, 384]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S384x128, .f32⟩
  | .hbm, ⟨1, _⟩ => ⟨S384x32, .f32⟩
  | .hbm, ⟨2, _⟩ => ⟨S384, .i32⟩
  | .hbm, ⟨3, _⟩ => ⟨S384x1, .i32⟩
  | .hbm, ⟨4, _⟩ => ⟨S1x384, .i32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S384x128, .f32⟩
  | .local _ .vmem, ⟨3, _⟩ => ⟨S8x1, .i32⟩
  | .local _ .vmem, ⟨4, _⟩ => ⟨S8x1, .i32⟩
  | .local _ .vmem, ⟨5, _⟩ => ⟨S1x384, .i32⟩
  | .local _ .vmem, ⟨6, _⟩ => ⟨S1x1, .f32⟩
  | .local _ .vmem, ⟨7, _⟩ => ⟨S1x1, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S384_S384x1 : S384.ShapeCasts S384x1
  shapeCasts_S384_S1x384 : S384.ShapeCasts S1x384
  inb_S1x1_S1x1_0_0 : ∀ a, (![0, 0] : Fin 2 → Nat) a + S1x1.size a ≤ S1x1.size a
  h_S1x1 : 0 < S1x1.numel
  inb_S8x128_S8x128_0_0 : ∀ a, (![0, 0] : Fin 2 → Nat) a + S8x128.size a ≤ S8x128.size a
  h_S8x128 : 0 < S8x128.numel
  inb_S384x128_S384x128_0_0 : ∀ a, (![0, 0] : Fin 2 → Nat) a + S384x128.size a ≤ S384x128.size a
  h_S384x128 : 0 < S384x128.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S8x128_S8 : S8x128.Reduces [1] S8
  shapeCasts_S8_S8x1 : S8.ShapeCasts S8x1
  reduces_S384x128_S384 : S384x128.Reduces [1] S384
  transposes_S384x1_p1_0_S1x384 : S384x1.Transposes [1, 0] S1x384
  transposes_S384x128_p1_0_S128x384 : S384x128.Transposes [1, 0] S128x384
  broadcasts_S8x1_S8x384 : S8x1.Broadcasts S8x384
  broadcasts_S1x384_S8x384 : S1x384.Broadcasts S8x384
  iota_S8x384_d0_w32 : S8x384.Iotas .tc 32 [0]
  iota_S8x384_d1_w32 : S8x384.Iotas .tc 32 [1]
  shapeCasts_S8x384_S8x384x1 : S8x384.ShapeCasts S8x384x1
  shapeCasts_S8x384_S8x1x384 : S8x384.ShapeCasts S8x1x384
  broadcasts_S8x384x1_S8x384x384 : S8x384x1.Broadcasts S8x384x384
  broadcasts_S8x1x384_S8x384x384 : S8x1x384.Broadcasts S8x384x384
  natLt_1_32 : 1 < 32
  reduces_S8x384x384_S8x384 : S8x384x384.Reduces [2] S8x384
  reduces_S8x384_S8 : S8x384.Reduces [1] S8
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  dot_S8x128_S128x384_S8x384_1_0_0_1_n_n_wf : DotDims.WF S8x128 S128x384 S8x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S384x128.size a
  hwx0_0 : ∀ i : grid0.Coords, EltTy.bits .f32 = 32 ∨ (Rect.block (s := S384x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S384x1.size a
  hwx0_2 : ∀ i : grid0.Coords, EltTy.bits .i32 = 32 ∨ (Rect.block (s := S384x1) S8x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .i32 = 32 ∨ (Rect.block (s := S1x384) S1x384.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S8x128_S128x384_S8x384_1_0_0_1_n_n : DotDims S8x128 S128x384 S8x384 where
  lhsContracting := [1]
  rhsContracting := [0]
  lhsNonContracting := [0]
  rhsNonContracting := [1]
  lhsBatch := []
  rhsBatch := []
  wf := dot_S8x128_S128x384_S8x384_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S384x128 : Shape := ⟨2, ![384, 128]⟩
abbrev S384x32 : Shape := ⟨2, ![384, 32]⟩
abbrev S384 : Shape := ⟨1, ![384]⟩
abbrev S_ : Shape := ⟨0, ![]⟩
abbrev S384x1 : Shape := ⟨2, ![384, 1]⟩
abbrev S1x384 : Shape := ⟨2, ![1, 384]⟩
abbrev S384x384 : Shape := ⟨2, ![384, 384]⟩
abbrev S128x384 : Shape := ⟨2, ![128, 384]⟩
abbrev S384x384x1 : Shape := ⟨3, ![384, 384, 1]⟩
abbrev S384x1x384 : Shape := ⟨3, ![384, 1, 384]⟩
abbrev S384x384x384 : Shape := ⟨3, ![384, 384, 384]⟩

abbrev nBuf : Space → Nat
  | .hbm => 60
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384x32, .f32⟩
  | .hbm, ⟨2, _⟩ => ⟨S384, .i32⟩
  | .hbm, ⟨3, _⟩ => ⟨S384x128, .f32⟩
  | .hbm, ⟨4, _⟩ => ⟨S_, .f32⟩
  | .hbm, ⟨5, _⟩ => ⟨S384, .f32⟩
  | .hbm, ⟨6, _⟩ => ⟨S384x1, .f32⟩
  | .hbm, ⟨7, _⟩ => ⟨S1x384, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S128x384, .f32⟩
  | .hbm, ⟨12, _⟩ => ⟨S384x384, .f32⟩
  | .hbm, ⟨13, _⟩ => ⟨S_, .f32⟩
  | .hbm, ⟨14, _⟩ => ⟨S384x384, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S384x384, .f32⟩
  | .hbm, ⟨19, _⟩ => ⟨S384x384, .f32⟩
  | .hbm, ⟨20, _⟩ => ⟨S384x1, .i32⟩
  | .hbm, ⟨21, _⟩ => ⟨S1x384, .i32⟩
  | .hbm, ⟨22, _⟩ => ⟨S384x384, .i32⟩
  | .hbm, ⟨23, _⟩ => ⟨S384x384, .i32⟩
  | .hbm, ⟨24, _⟩ => ⟨S384x384, .i1⟩
  | .hbm, ⟨25, _⟩ => ⟨S384x384, .i32⟩
  | .hbm, ⟨26, _⟩ => ⟨S384x384, .i32⟩
  | .hbm, ⟨27, _⟩ => ⟨S_, .i32⟩
  | .hbm, ⟨28, _⟩ => ⟨S384x384, .i32⟩
  | .hbm, ⟨29, _⟩ => ⟨S384x384, .i32⟩
  | .hbm, ⟨30, _⟩ => ⟨S384x384, .i1⟩
  | .hbm, ⟨31, _⟩ => ⟨S384x384, .i1⟩
  | .hbm, ⟨32, _⟩ => ⟨S384x384, .i1⟩
  | .hbm, ⟨33, _⟩ => ⟨S384x384, .i1⟩
  | .hbm, ⟨34, _⟩ => ⟨S384x384x1, .f32⟩
  | .hbm, ⟨35, _⟩ => ⟨S384x1x384, .f32⟩
  | .hbm, ⟨36, _⟩ => ⟨S384x384x384, .f32⟩
  | .hbm, ⟨37, _⟩ => ⟨S384x384x384, .f32⟩
  | .hbm, ⟨38, _⟩ => ⟨S384x384x384, .f32⟩
  | .hbm, ⟨39, _⟩ => ⟨S_, .f32⟩
  | .hbm, ⟨40, _⟩ => ⟨S384x384x384, .f32⟩
  | .hbm, ⟨41, _⟩ => ⟨S384x384x384, .f32⟩
  | .hbm, ⟨42, _⟩ => ⟨S_, .f32⟩
  | .hbm, ⟨43, _⟩ => ⟨S384x384x384, .f32⟩
  | .hbm, ⟨44, _⟩ => ⟨S384x384x384, .f32⟩
  | .hbm, ⟨45, _⟩ => ⟨S384x384x1, .i1⟩
  | .hbm, ⟨46, _⟩ => ⟨S384x1x384, .i1⟩
  | .hbm, ⟨47, _⟩ => ⟨S384x384x384, .i1⟩
  | .hbm, ⟨48, _⟩ => ⟨S384x384x384, .i1⟩
  | .hbm, ⟨49, _⟩ => ⟨S384x384x384, .i1⟩
  | .hbm, ⟨50, _⟩ => ⟨S_, .f32⟩
  | .hbm, ⟨51, _⟩ => ⟨S_, .f32⟩
  | .hbm, ⟨52, _⟩ => ⟨S384x384x384, .f32⟩
  | .hbm, ⟨53, _⟩ => ⟨S384x384x384, .f32⟩
  | .hbm, ⟨54, _⟩ => ⟨S_, .f32⟩
  | .hbm, ⟨55, _⟩ => ⟨S_, .f32⟩
  | .hbm, ⟨56, _⟩ => ⟨S384x384x384, .f32⟩
  | .hbm, ⟨57, _⟩ => ⟨S_, .f32⟩
  | .hbm, ⟨58, _⟩ => ⟨S_, .f32⟩
  | .hbm, ⟨59, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_call0_cst : Ref sig .tc := ⟨.hbm, 42, rfl⟩
abbrev main_call0_v0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  transposes_S384x128_S128x384_1_0 : S384x128.Transposes [1, 0] S128x384
  bcast_S_S384x384 : S_.BroadcastsInDim S384x384 (![] : Fin 0 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  reducesTo_S384x384x384_S_d0_1_2 : S384x384x384.ReducesTo [0, 1, 2] S_
  dot_S384x128_S128x384_S384x384_1_0_0_1_n_n_wf : DotDims.WF S384x128 S128x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.KRuns.lean ====
/-
  The kernel body run once per control case. The body zeroes both 1x1 accumulators when the grid
  coordinate is 0 and then, at every point, adds the block's masked triplet sum into the first and
  the block's count of valid triplets into the second. Two cases: the first grid point (the
  conditional taken; the accumulators' previous contents are never used) and every later point
  (the conditional skipped; the accumulators are read at what the previous point left).
-/
import proofs.«127347_j76373108458148_2_alg».proof.Proof.Gen.Kernel.Launch
import proofs.«127347_j76373108458148_2_alg».proof.Proof.Gen.Kernel.Skeleton
import proofs.«127347_j76373108458148_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one conditional, as a function of the grid coordinates: "the coordinate is 0". -/
abbrev isFirst (i : grid0.Coords) : Prop :=
  (Scalar.cmpi .ne (Scalar.extui (Scalar.cmpi .eq (BitVec.ofNat 32 (i 0).val) 0#32)) 0#32) = 1#1

/-- It holds at grid point 0 only (decided over the 48 points). -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- First point: from the four inputs' staging buffers at their contents and the two accumulators'
    buffers at anything, the body runs and leaves the inputs as they were and each accumulator's
    buffer with the listed stores written (the lists are found by the run). -/
noncomputable def runFirst (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole)
    (hc : isFirst i)
    (x0 : Vec F S8x128 .f32) (x1 : Vec F S384x128 .f32) (x2 : Vec F S8x1 .i32) (x3 : Vec F S1x384 .i32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__triplet_kernel i arg1 harg1 arg2 harg2 arg3 harg3 arg4 harg4 arg5 harg5 arg6 harg6) K } := by
  refine ⟨(?_, ?_), fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]
    · iexists _; iexact H5
    iexists _; iexact H6

set_option maxHeartbeats 4000000 in
/-- A later point: the same, the accumulators' buffers entering at known contents `a5`, `a6`. -/
noncomputable def runLater (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole)
    (hc : ¬isFirst i)
    (x0 : Vec F S8x128 .f32) (x1 : Vec F S384x128 .f32) (x2 : Vec F S8x1 .i32) (x3 : Vec F S1x384 .i32)
    (a5 : Vec F S1x1 .f32) (a6 : Vec F S1x1 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare a5 ∗ owns (c : Thread nD τ) arg6 fullShare a6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__triplet_kernel i arg1 harg1 arg2 harg2 arg3 harg3 arg4 harg4 arg5 harg5 arg6 harg6) K } := by
  refine ⟨(?_, ?_), fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf5
    obtain rfl := harg6.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]
    · iexists _; iexact H5
    iexists _; iexact H6

end Cert.Kernel.Fr

end
-- ==== Proof.KDat.lean ====
/-
  The pipeline's proof data. Windows 0-3 are inputs (an 8-row block of the feature matrix, the whole
  feature matrix, an 8-row block of the labels as a column, all labels as a row); the same feature
  array stands behind windows 0 and 1, each holding half of its share. Windows 4 and 5 are the two
  1x1 accumulators, written back once, after the last grid point. After grid point t the accumulators
  hold what the case of point t leaves, computed from the point's input blocks and, past the first
  point, from what point t-1 left.
-/
import proofs.«127347_j76373108458148_2_alg».proof.Proof.Gen.Kernel.Launch
import proofs.«127347_j76373108458148_2_alg».proof.Proof.Gen.Kernel.Skeleton
import proofs.«127347_j76373108458148_2_alg».proof.Proof.Gen.Kernel.Points
import proofs.«127347_j76373108458148_2_alg».proof.Proof.KRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging memref each window is on at point `t`, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- A 1x1 view through which an accumulator's contents are read back (any whole one will do). -/
abbrev VO : View sig .tc .vmem S1x1 .f32 := (Memref.whole cc0_stg4_0 : Memref sig .tc .vmem S1x1 .f32).view

/-! ## What each case leaves in the accumulators -/

theorem coverFirst5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) (y : S1x1.Idx) :
    ∃ pc ∈ (runFirst c i arg1 harg1 arg2 harg2 arg3 harg3 arg4 harg4 arg5 harg5 arg6 harg6 hc x0 x1 x2 x3).1.1, y ∈ pc.1.set :=
  View.cover_of_tiledL (runFirst c i arg1 harg1 arg2 harg2 arg3 harg3 arg4 harg4 arg5 harg5 arg6 harg6 hc x0 x1 x2 x3).1.1 S1x1.size (by sl_kernel_rfl) y
theorem coverFirst6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) (y : S1x1.Idx) :
    ∃ pc ∈ (runFirst c i arg1 harg1 arg2 harg2 arg3 harg3 arg4 harg4 arg5 harg5 arg6 harg6 hc x0 x1 x2 x3).1.2, y ∈ pc.1.set :=
  View.cover_of_tiledL (runFirst c i arg1 harg1 arg2 harg2 arg3 harg3 arg4 harg4 arg5 harg5 arg6 harg6 hc x0 x1 x2 x3).1.2 S1x1.size (by sl_kernel_rfl) y
theorem coverLater5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) (y : S1x1.Idx) :
    ∃ pc ∈ (runLater c i arg1 harg1 arg2 harg2 arg3 harg3 arg4 harg4 arg5 harg5 arg6 harg6 hc x0 x1 x2 x3 a5 a6).1.1, y ∈ pc.1.set :=
  View.cover_of_tiledL (runLater c i arg1 harg1 arg2 harg2 arg3 harg3 arg4 harg4 arg5 harg5 arg6 harg6 hc x0 x1 x2 x3 a5 a6).1.1 S1x1.size (by sl_kernel_rfl) y
theorem coverLater6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) (y : S1x1.Idx) :
    ∃ pc ∈ (runLater c i arg1 harg1 arg2 harg2 arg3 harg3 arg4 harg4 arg5 harg5 arg6 harg6 hc x0 x1 x2 x3 a5 a6).1.2, y ∈ pc.1.set :=
  View.cover_of_tiledL (runLater c i arg1 harg1 arg2 harg2 arg3 harg3 arg4 harg4 arg5 harg5 arg6 harg6 hc x0 x1 x2 x3 a5 a6).1.2 S1x1.size (by sl_kernel_rfl) y

/-- The accumulators after the first point's body: its stores read back. -/
def outFirst5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) : Vec F S1x1 .f32 :=
  VO.read (Elt F) (VO.writes (Elt F) VO.junk (runFirst c i arg1 harg1 arg2 harg2 arg3 harg3 arg4 harg4 arg5 harg5 arg6 harg6 hc x0 x1 x2 x3).1.1)
def outFirst6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) : Vec F S1x1 .f32 :=
  VO.read (Elt F) (VO.writes (Elt F) VO.junk (runFirst c i arg1 harg1 arg2 harg2 arg3 harg3 arg4 harg4 arg5 harg5 arg6 harg6 hc x0 x1 x2 x3).1.2)
/-- The accumulators after a later point's body, entered at `a5`, `a6`. -/
def outLater5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) : Vec F S1x1 .f32 :=
  VO.read (Elt F) (VO.writes (Elt F) VO.junk (runLater c i arg1 harg1 arg2 harg2 arg3 harg3 arg4 harg4 arg5 harg5 arg6 harg6 hc x0 x1 x2 x3 a5 a6).1.1)
def outLater6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) : Vec F S1x1 .f32 :=
  VO.read (Elt F) (VO.writes (Elt F) VO.junk (runLater c i arg1 harg1 arg2 harg2 arg3 harg3 arg4 harg4 arg5 harg5 arg6 harg6 hc x0 x1 x2 x3 a5 a6).1.2)

/-- THE ACCUMULATION: the two accumulators after the body at grid position `n`. -/
def outsAt (c : Dev nD) : (n : ℕ) → n < cfg0.N → Vec F S1x1 .f32 × Vec F S1x1 .f32
  | 0, hn =>
    (outFirst5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((isFirst_iff ⟨0, hn⟩).mpr rfl) (iblk V c 0 ⟨0, hn⟩) (iblk V c 1 ⟨0, hn⟩) (iblk V c 2 ⟨0, hn⟩) (iblk V c 3 ⟨0, hn⟩),
     outFirst6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((isFirst_iff ⟨0, hn⟩).mpr rfl) (iblk V c 0 ⟨0, hn⟩) (iblk V c 1 ⟨0, hn⟩) (iblk V c 2 ⟨0, hn⟩) (iblk V c 3 ⟨0, hn⟩))
  | n + 1, hn =>
    (outLater5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((isFirst_iff ⟨n + 1, hn⟩).mp h)) (iblk V c 0 ⟨n + 1, hn⟩) (iblk V c 1 ⟨n + 1, hn⟩) (iblk V c 2 ⟨n + 1, hn⟩) (iblk V c 3 ⟨n + 1, hn⟩)
        (outsAt c n (Nat.lt_of_succ_lt hn)).1 (outsAt c n (Nat.lt_of_succ_lt hn)).2,
     outLater6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((isFirst_iff ⟨n + 1, hn⟩).mp h)) (iblk V c 0 ⟨n + 1, hn⟩) (iblk V c 1 ⟨n + 1, hn⟩) (iblk V c 2 ⟨n + 1, hn⟩) (iblk V c 3 ⟨n + 1, hn⟩)
        (outsAt c n (Nat.lt_of_succ_lt hn)).1 (outsAt c n (Nat.lt_of_succ_lt hn)).2)

theorem outsAt_first (c : Dev nD) (t : Fin cfg0.N) (h0 : t.val = 0) :
    outsAt V c t.val t.isLt =
      (outFirst5 c (grid0.coords t) (ms0 t) (hs0 t) (ms1 t) (hs1 t) (ms2 t) (hs2 t) (ms3 t) (hs3 t) (ms4 t) (hs4 t) (ms5 t) (hs5 t) ((isFirst_iff t).mpr h0) (iblk V c 0 t) (iblk V c 1 t) (iblk V c 2 t) (iblk V c 3 t),
       outFirst6 c (grid0.coords t) (ms0 t) (hs0 t) (ms1 t) (hs1 t) (ms2 t) (hs2 t) (ms3 t) (hs3 t) (ms4 t) (hs4 t) (ms5 t) (hs5 t) ((isFirst_iff t).mpr h0) (iblk V c 0 t) (iblk V c 1 t) (iblk V c 2 t) (iblk V c 3 t)) := by
  obtain ⟨n, hn⟩ := t
  cases n with
  | zero => exact rfl
  | succ n => exact absurd h0 (Nat.succ_ne_zero n)

theorem outsAt_later (c : Dev nD) (t : Fin cfg0.N) (h0 : ¬t.val = 0) :
    outsAt V c t.val t.isLt =
      (outLater5 c (grid0.coords t) (ms0 t) (hs0 t) (ms1 t) (hs1 t) (ms2 t) (hs2 t) (ms3 t) (hs3 t) (ms4 t) (hs4 t) (ms5 t) (hs5 t) (fun h => h0 ((isFirst_iff t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2,
       outLater6 c (grid0.coords t) (ms0 t) (hs0 t) (ms1 t) (hs1 t) (ms2 t) (hs2 t) (ms3 t) (hs3 t) (ms4 t) (hs4 t) (ms5 t) (hs5 t) (fun h => h0 ((isFirst_iff t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = (outsAt V c t.val t.isLt).1 := by dsimp only [dat0]
theorem after_5 (c : Dev nD) (t : Fin cfg0.N) : (dat0 V c).after 5 t = (outsAt V c t.val t.isLt).2 := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq0]; try rfl) t d).trans
    (by unfold Dat.fetched Dat.blockOf iblk; rw [A_eq0]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq0]; try rfl) t d).trans
    (by unfold Dat.fetched Dat.blockOf iblk; rw [A_eq0]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq0]; try rfl) t d).trans
    (by unfold Dat.fetched Dat.blockOf iblk; rw [A_eq0]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq0]; try rfl) t d).trans
    (by unfold Dat.fetched Dat.blockOf iblk; rw [A_eq0]; try rfl)

/-- Past the first point an accumulator's staging buffer holds what the point before left: it is
    written back after the last point only. -/
theorem before_4_later (c : Dev nD) (t : Fin cfg0.N) (h0 : ¬t.val = 0) (d) :
    (dat0 V c).before 4 t d = (outsAt V c (t.val - 1) (Nat.lt_of_le_of_lt (Nat.sub_le _ _) t.isLt)).1 := by
  have hN : t.val < 48 := lt_of_lt_of_eq t.isLt (show cfg0.N = 48 from N_0)
  rw [Dat.before_out_kept _ 4 rfl t h0 (Bool.eq_false_iff.mpr fun h => by have := (flush0_4 _).mp h; dsimp only at this; omega)
    (fun _ => rfl) (fun _ _ => rfl)]
  dsimp only [dat0]
theorem before_5_later (c : Dev nD) (t : Fin cfg0.N) (h0 : ¬t.val = 0) (d) :
    (dat0 V c).before 5 t d = (outsAt V c (t.val - 1) (Nat.lt_of_le_of_lt (Nat.sub_le _ _) t.isLt)).2 := by
  have hN : t.val < 48 := lt_of_lt_of_eq t.isLt (show cfg0.N = 48 from N_0)
  rw [Dat.before_out_kept _ 5 rfl t h0 (Bool.eq_false_iff.mpr fun h => by have := (flush0_5 _).mp h; dsimp only at this; omega)
    (fun _ => rfl) (fun _ _ => rfl)]
  dsimp only [dat0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5]
  by_cases h0 : t.val = 0
  · rw [outsAt_first V c t h0]
    dsimp only
    unfold outFirst5 outFirst6
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((isFirst_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst5 c _ _ _ _ _ _ _ _ _ _ _ _ _ _ _ _ _ _)
    · unfold owns; iexists _; isplitr
      swap; · iexact H5
      ipureintro; exact View.read_writes_of_cover _ _ _ _ _ (coverFirst6 c _ _ _ _ _ _ _ _ _ _ _ _ _ _ _ _ _ _)
  · rw [outsAt_later V c t h0]
    dsimp only
    simp only [before_4_later V c t h0, before_5_later V c t h0]
    unfold outLater5 outLater6
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((isFirst_iff t).mp h)) (iblk V c 0 t) (iblk V c 1 t) (iblk V c 2 t) (iblk V c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater5 c _ _ _ _ _ _ _ _ _ _ _ _ _ _ _ _ _ _ _ _)
    · unfold owns; iexists _; isplitr
      swap; · iexact H5
      ipureintro; exact View.read_writes_of_cover _ _ _ _ _ (coverLater6 c _ _ _ _ _ _ _ _ _ _ _ _ _ _ _ _ _ _ _ _)

theorem body_obligation (c : Dev nD) : BodyObligation (dat0 (F := F) V c) (defs₀ (F := F)) Variants.none () Set.univ := fun t => by
  rw [bigSep_W0, bigSep_W0]
  exact sound_body V c t

end Region

end Cert.Kernel.Fr

end
-- ==== Proof.KLaunch.lean ====
/-
  The launch. @main is two reshapes of the labels, the kernel region, and three host lines (two
  reshapes of the 1x1 accumulators to scalars and their quotient). The region is entered from every
  unscoped buffer held whole; the feature array, which stands behind windows 0 and 1, is dealt to
  them as the two halves of its share and joined again at the region's exit, where the two
  accumulators' arrays hold what the last grid point left.
-/
import proofs.«127347_j76373108458148_2_alg».proof.Proof.Gen.Kernel.Launch
import proofs.«127347_j76373108458148_2_alg».proof.Proof.Gen.Kernel.Skeleton
import proofs.«127347_j76373108458148_2_alg».proof.Proof.Gen.Kernel.Points
import proofs.«127347_j76373108458148_2_alg».proof.Proof.KDat
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The arrays one by one -/

section Split
variable (V : (c : Dev nD) → (b : Ref sig .tc) → Buf (Elt F) ((c : Thread nD τ).loc b))

/-- The five distinct buffers behind the six windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_v1) ↦{fullShare} V' main_v1) ∗ (((c : Thread nD τ).loc main_v2_0) ↦{fullShare} V' main_v2_0)
          ∗ (((c : Thread nD τ).loc main_v2_1) ↦{fullShare} V' main_v2_1)) := by
  unfold Pipeline.arrBufs
  exact bigSep_eq_bigSepL_of_eq [main_arg0, main_v0, main_v1, main_v2_0, main_v2_1] (by decide) (by decide) _

/-- Each window's share of its array: the two windows on the feature array hold a half each. -/
theorem share_0 (c : Dev nD) : (dat0 V c).share 0 = fullShare.left := by
  unfold Dat.share; rw [show (cfg0.win 0).isOut = false from rfl, if_neg Bool.false_ne_true]; dsimp only [dat0]
theorem share_1 (c : Dev nD) : (dat0 V c).share 1 = fullShare.right := by
  unfold Dat.share; rw [show (cfg0.win 1).isOut = false from rfl, if_neg Bool.false_ne_true]; dsimp only [dat0]
theorem share_2 (c : Dev nD) : (dat0 V c).share 2 = fullShare := by
  unfold Dat.share; rw [show (cfg0.win 2).isOut = false from rfl, if_neg Bool.false_ne_true]; dsimp only [dat0]
theorem share_3 (c : Dev nD) : (dat0 V c).share 3 = fullShare := by
  unfold Dat.share; rw [show (cfg0.win 3).isOut = false from rfl, if_neg Bool.false_ne_true]; dsimp only [dat0]
theorem share_4 (c : Dev nD) : (dat0 V c).share 4 = fullShare := by
  unfold Dat.share; rw [show (cfg0.win 4).isOut = true from rfl, if_pos rfl]
theorem share_5 (c : Dev nD) : (dat0 V c).share 5 = fullShare := by
  unfold Dat.share; rw [show (cfg0.win 5).isOut = true from rfl, if_pos rfl]

/-- The proof data's arrays, window by window, each at its share. -/
theorem arrays_eq6 (c : Dev nD) (G : (w : Fin cfg0.W) → Buf (Elt F) ((cfg0.win w).arr.view.loc (c : Thread nD τ))) :
    (dat0 V c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  have h : (dat0 V c).arrays G = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share_0, share_1, share_2, share_3, share_4, share_5]

end Split

/-! ## The buffer contents at each boundary of @main -/

/-- At launch. -/
abbrev W0 : Dev nD → Valuation τ sig (Elt F) := fun c b => (s₀ m ρ).mem ((c : Dev nD), b)
/-- After the two reshapes of the labels (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the two accumulators' arrays at what the pipeline leaves, every other buffer as entered. -/
def W2 (c : Dev nD) : Valuation τ sig (Elt F) :=
  Function.update (Function.update (W1 m ρ c) (Proc.devRef .tc main_v2_0) ((dat0 (V1 m ρ) c).arrAt 4 cfg0.N))
    (Proc.devRef .tc main_v2_1) ((dat0 (V1 m ρ) c).arrAt 5 cfg0.N)
theorem W2_v2_0 (c : Dev nD) : W2 m ρ c (Proc.devRef .tc main_v2_0) = (dat0 (V1 m ρ) c).arrAt 4 cfg0.N := by
  unfold W2; rw [Function.update_of_ne (StableHlo.devRef_ne_of_ne (by decide)), Function.update_self]
theorem W2_v2_1 (c : Dev nD) : W2 m ρ c (Proc.devRef .tc main_v2_1) = (dat0 (V1 m ρ) c).arrAt 5 cfg0.N := by
  unfold W2; rw [Function.update_self]
theorem W2_of_ne (c : Dev nD) (b : Ref sig .tc) (h0 : b ≠ main_v2_0) (h1 : b ≠ main_v2_1) :
    W2 m ρ c (Proc.devRef .tc b) = W1 m ρ c (Proc.devRef .tc b) := by
  unfold W2; rw [Function.update_of_ne (StableHlo.devRef_ne_of_ne h1), Function.update_of_ne (StableHlo.devRef_ne_of_ne h0)]
abbrev V2 : (c : Dev nD) → (b : Ref sig .tc) → Buf (Elt F) ((c : Thread nD τ).loc b) := fun c b => W2 m ρ c b
/-- After the three host lines that follow the region (the return). -/
abbrev W3 : Dev nD → Valuation τ sig (Elt F) := fun c => StableHlo.after hostOps1 (W2 m ρ c)

/-- Each array at the region's exit: the inputs' as entered, the accumulators' as the pipeline leaves them. -/
theorem arrAt_N (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c main_arg0 (by decide) (by decide)).symm)
  | ⟨1, _⟩ => ((dat0 (V1 m ρ) c).arrAt_in 1 rfl _).trans ((A_eq0 (V1 m ρ) c 1).trans (W2_of_ne m ρ c main_arg0 (by decide) (by decide)).symm)
  | ⟨2, _⟩ => ((dat0 (V1 m ρ) c).arrAt_in 2 rfl _).trans ((A_eq0 (V1 m ρ) c 2).trans (W2_of_ne m ρ c main_v0 (by decide) (by decide)).symm)
  | ⟨3, _⟩ => ((dat0 (V1 m ρ) c).arrAt_in 3 rfl _).trans ((A_eq0 (V1 m ρ) c 3).trans (W2_of_ne m ρ c main_v1 (by decide) (by decide)).symm)
  | ⟨4, _⟩ => (W2_v2_0 m ρ c).symm
  | ⟨5, _⟩ => (W2_v2_1 m ρ c).symm

/-- Off the windows' arrays the exit contents are the entry contents. -/
theorem V2_rest (c : Dev nD) (b : Ref sig .tc) (hb : b ∉ Finset.univ.image (Pipeline.arrRef spec0)) : V2 m ρ c b = V1 m ρ c b :=
  W2_of_ne m ρ c b (fun e => hb (e ▸ (by decide : main_v2_0 ∈ Finset.univ.image (Pipeline.arrRef spec0))))
    (fun e => hb (e ▸ (by decide : main_v2_1 ∈ Finset.univ.image (Pipeline.arrRef spec0))))

/-- ENTRY: every unscoped buffer whole at the entry contents is the windows' arrays, the feature
    array's share dealt in halves to the two windows on it, and the buffers no window stages. -/
theorem split_in (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs (0 : Fin 1) winFacts₀0.arr_unscoped c (V1 m ρ c), arrBufs_eq,
    show ((dat0 (V1 m ρ) c).arrAt · 0) = fun w => V1 m ρ c (Pipeline.arrRef spec0 w) from rfl, arrays_eq6]
  iintro ⟨⟨Ha, H0, H1, H4, H5⟩, Hrest⟩
  ihave Ha := (pointsTo_share (PosShare.mem_left_op_right fullShare)).1 $$ Ha
  icases Ha with ⟨Hl, Hr⟩
  isplitr [Hrest]
  swap; · iexact Hrest
  isplitl [Hl]; · iexact Hl
  isplitl [Hr]; · iexact Hr
  isplitl [H0]; · iexact H0
  isplitl [H1]; · iexact H1
  isplitl [H4]; · iexact H4
  iexact H5

/-- EXIT: the arrays at what the pipeline leaves and the buffers no window stages are every unscoped
    buffer whole at the exit contents; the two halves of the feature array's share join. -/
theorem join_out (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs (0 : Fin 1) winFacts₀0.arr_unscoped c (V2 m ρ c), arrBufs_eq,
    show ((dat0 (V1 m ρ) c).arrAt · cfg0.N) = fun w => V2 m ρ c (Pipeline.arrRef spec0 w) from funext (arrAt_N m ρ c), arrays_eq6]
  iintro ⟨⟨Hl, Hr, H0, H1, H4, H5⟩, Hrest⟩
  isplitr [Hrest]
  swap
  · iapply (Entails.of_eq (show Pipeline.unscopedRest (Ix := Unit) (Name := ℕ) (U := UR sig nD τ) (Lvl := ℕ) spec0 c (V1 m ρ c) = Pipeline.unscopedRest spec0 c (V2 m ρ c) from by
      unfold Pipeline.unscopedRest
      exact bigSep_congr fun b hb => by rw [V2_rest m ρ c b (Finset.mem_sdiff.mp hb).2]))
    iexact Hrest
  isplitl [Hl Hr]
  · iapply (pointsTo_share (PosShare.mem_left_op_right fullShare)).2
    isplitl [Hl]; · iexact Hl
    iexact Hr
  isplitl [H0]; · iexact H0
  isplitl [H1]; · iexact H1
  isplitl [H4]; · iexact H4
  iexact H5

/-! ## The proof data family and the thread state -/

abbrev adm : (p : Fin 1) → (pcfgs (F := F) p).Adm := fun p => (cfgs p).toPCfg_adm
abbrev pdats : (p : Fin 1) → (c : Dev nD) → Dat τ (Elt F) Unit ℕ (UR sig nD τ) ℕ (Pipeline.pin (pcfgs (F := F)) adm p) c :=
  fun _ c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := split_in m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join_out m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates,
    nothing faulting, with every unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched -/

/-- No host line and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host line and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host line and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option backward.isDefEq.respectTransparency.types false in
/-- THE FRAME: every weakly fair execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run m ρ)

end Cert.Kernel.Fr

end
-- ==== Proof.KIRuns.lean ====
/-
  The kernel body run once per control case. The body zeroes both 1x1 accumulators when the grid
  coordinate is 0 and then, at every point, adds the block's masked triplet sum into the first and
  the block's count of valid triplets into the second. Two cases: the first grid point (the
  conditional taken; the accumulators' previous contents are never used) and every later point
  (the conditional skipped; the accumulators are read at what the previous point left).
-/
import proofs.«127347_j76373108458148_2_alg».proof.Proof.Gen.KernelIdeal.Launch
import proofs.«127347_j76373108458148_2_alg».proof.Proof.Gen.KernelIdeal.Skeleton
import proofs.«127347_j76373108458148_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one conditional, as a function of the grid coordinates: "the coordinate is 0". -/
abbrev isFirst (i : grid0.Coords) : Prop :=
  (Scalar.cmpi .ne (Scalar.extui (Scalar.cmpi .eq (BitVec.ofNat 32 (i 0).val) 0#32)) 0#32) = 1#1

/-- It holds at grid point 0 only (decided over the 48 points). -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- First point: from the four inputs' staging buffers at their contents and the two accumulators'
    buffers at anything, the body runs and leaves the inputs as they were and each accumulator's
    buffer with the listed stores written (the lists are found by the run). -/
noncomputable def runFirst (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole)
    (hc : isFirst i)
    (x0 : Vec F S8x128 .f32) (x1 : Vec F S384x128 .f32) (x2 : Vec F S8x1 .i32) (x3 : Vec F S1x384 .i32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__triplet_kernel i arg1 harg1 arg2 harg2 arg3 harg3 arg4 harg4 arg5 harg5 arg6 harg6) K } := by
  refine ⟨(?_, ?_), fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]
    · iexists _; iexact H5
    iexists _; iexact H6

set_option maxHeartbeats 4000000 in
/-- A later point: the same, the accumulators' buffers entering at known contents `a5`, `a6`. -/
noncomputable def runLater (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole)
    (hc : ¬isFirst i)
    (x0 : Vec F S8x128 .f32) (x1 : Vec F S384x128 .f32) (x2 : Vec F S8x1 .i32) (x3 : Vec F S1x384 .i32)
    (a5 : Vec F S1x1 .f32) (a6 : Vec F S1x1 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare a5 ∗ owns (c : Thread nD τ) arg6 fullShare a6
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__triplet_kernel i arg1 harg1 arg2 harg2 arg3 harg3 arg4 harg4 arg5 harg5 arg6 harg6) K } := by
  refine ⟨(?_, ?_), fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg5.eq_unread hf5
    obtain rfl := harg6.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H5]
    · iexists _; iexact H5
    iexists _; iexact H6

end Cert.KernelIdeal.Fr

end
-- ==== Proof.KIDat.lean ====
/-
  The pipeline's proof data. Windows 0-3 are inputs (an 8-row block of the feature matrix, the whole
  feature matrix, an 8-row block of the labels as a column, all labels as a row); the same feature
  array stands behind windows 0 and 1, each holding half of its share. Windows 4 and 5 are the two
  1x1 accumulators, written back once, after the last grid point. After grid point t the accumulators
  hold what the case of point t leaves, computed from the point's input blocks and, past the first
  point, from what point t-1 left.
-/
import proofs.«127347_j76373108458148_2_alg».proof.Proof.Gen.KernelIdeal.Launch
import proofs.«127347_j76373108458148_2_alg».proof.Proof.Gen.KernelIdeal.Skeleton
import proofs.«127347_j76373108458148_2_alg».proof.Proof.Gen.KernelIdeal.Points
import proofs.«127347_j76373108458148_2_alg».proof.Proof.KIRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging memref each window is on at point `t`, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-- A 1x1 view through which an accumulator's contents are read back (any whole one will do). -/
abbrev VO : View sig .tc .vmem S1x1 .f32 := (Memref.whole cc0_stg4_0 : Memref sig .tc .vmem S1x1 .f32).view

/-! ## What each case leaves in the accumulators -/

theorem coverFirst5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) (y : S1x1.Idx) :
    ∃ pc ∈ (runFirst c i arg1 harg1 arg2 harg2 arg3 harg3 arg4 harg4 arg5 harg5 arg6 harg6 hc x0 x1 x2 x3).1.1, y ∈ pc.1.set :=
  View.cover_of_tiledL (runFirst c i arg1 harg1 arg2 harg2 arg3 harg3 arg4 harg4 arg5 harg5 arg6 harg6 hc x0 x1 x2 x3).1.1 S1x1.size (by sl_kernel_rfl) y
theorem coverFirst6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) (y : S1x1.Idx) :
    ∃ pc ∈ (runFirst c i arg1 harg1 arg2 harg2 arg3 harg3 arg4 harg4 arg5 harg5 arg6 harg6 hc x0 x1 x2 x3).1.2, y ∈ pc.1.set :=
  View.cover_of_tiledL (runFirst c i arg1 harg1 arg2 harg2 arg3 harg3 arg4 harg4 arg5 harg5 arg6 harg6 hc x0 x1 x2 x3).1.2 S1x1.size (by sl_kernel_rfl) y
theorem coverLater5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) (y : S1x1.Idx) :
    ∃ pc ∈ (runLater c i arg1 harg1 arg2 harg2 arg3 harg3 arg4 harg4 arg5 harg5 arg6 harg6 hc x0 x1 x2 x3 a5 a6).1.1, y ∈ pc.1.set :=
  View.cover_of_tiledL (runLater c i arg1 harg1 arg2 harg2 arg3 harg3 arg4 harg4 arg5 harg5 arg6 harg6 hc x0 x1 x2 x3 a5 a6).1.1 S1x1.size (by sl_kernel_rfl) y
theorem coverLater6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) (y : S1x1.Idx) :
    ∃ pc ∈ (runLater c i arg1 harg1 arg2 harg2 arg3 harg3 arg4 harg4 arg5 harg5 arg6 harg6 hc x0 x1 x2 x3 a5 a6).1.2, y ∈ pc.1.set :=
  View.cover_of_tiledL (runLater c i arg1 harg1 arg2 harg2 arg3 harg3 arg4 harg4 arg5 harg5 arg6 harg6 hc x0 x1 x2 x3 a5 a6).1.2 S1x1.size (by sl_kernel_rfl) y

/-- The accumulators after the first point's body: its stores read back. -/
def outFirst5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) : Vec F S1x1 .f32 :=
  VO.read (Elt F) (VO.writes (Elt F) VO.junk (runFirst c i arg1 harg1 arg2 harg2 arg3 harg3 arg4 harg4 arg5 harg5 arg6 harg6 hc x0 x1 x2 x3).1.1)
def outFirst6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) : Vec F S1x1 .f32 :=
  VO.read (Elt F) (VO.writes (Elt F) VO.junk (runFirst c i arg1 harg1 arg2 harg2 arg3 harg3 arg4 harg4 arg5 harg5 arg6 harg6 hc x0 x1 x2 x3).1.2)
/-- The accumulators after a later point's body, entered at `a5`, `a6`. -/
def outLater5 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) : Vec F S1x1 .f32 :=
  VO.read (Elt F) (VO.writes (Elt F) VO.junk (runLater c i arg1 harg1 arg2 harg2 arg3 harg3 arg4 harg4 arg5 harg5 arg6 harg6 hc x0 x1 x2 x3 a5 a6).1.1)
def outLater6 (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) : Vec F S1x1 .f32 :=
  VO.read (Elt F) (VO.writes (Elt F) VO.junk (runLater c i arg1 harg1 arg2 harg2 arg3 harg3 arg4 harg4 arg5 harg5 arg6 harg6 hc x0 x1 x2 x3 a5 a6).1.2)

/-- THE ACCUMULATION: the two accumulators after the body at grid position `n`. -/
def outsAt (c : Dev nD) : (n : ℕ) → n < cfg0.N → Vec F S1x1 .f32 × Vec F S1x1 .f32
  | 0, hn =>
    (outFirst5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((isFirst_iff ⟨0, hn⟩).mpr rfl) (iblk V c 0 ⟨0, hn⟩) (iblk V c 1 ⟨0, hn⟩) (iblk V c 2 ⟨0, hn⟩) (iblk V c 3 ⟨0, hn⟩),
     outFirst6 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((isFirst_iff ⟨0, hn⟩).mpr rfl) (iblk V c 0 ⟨0, hn⟩) (iblk V c 1 ⟨0, hn⟩) (iblk V c 2 ⟨0, hn⟩) (iblk V c 3 ⟨0, hn⟩))
  | n + 1, hn =>
    (outLater5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((isFirst_iff ⟨n + 1, hn⟩).mp h)) (iblk V c 0 ⟨n + 1, hn⟩) (iblk V c 1 ⟨n + 1, hn⟩) (iblk V c 2 ⟨n + 1, hn⟩) (iblk V c 3 ⟨n + 1, hn⟩)
        (outsAt c n (Nat.lt_of_succ_lt hn)).1 (outsAt c n (Nat.lt_of_succ_lt hn)).2,
     outLater6 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((isFirst_iff ⟨n + 1, hn⟩).mp h)) (iblk V c 0 ⟨n + 1, hn⟩) (iblk V c 1 ⟨n + 1, hn⟩) (iblk V c 2 ⟨n + 1, hn⟩) (iblk V c 3 ⟨n + 1, hn⟩)
        (outsAt c n (Nat.lt_of_succ_lt hn)).1 (outsAt c n (Nat.lt_of_succ_lt hn)).2)

theorem outsAt_first (c : Dev nD) (t : Fin cfg0.N) (h0 : t.val = 0) :
    outsAt V c t.val t.isLt =
      (outFirst5 c (grid0.coords t) (ms0 t) (hs0 t) (ms1 t) (hs1 t) (ms2 t) (hs2 t) (ms3 t) (hs3 t) (ms4 t) (hs4 t) (ms5 t) (hs5 t) ((isFirst_iff t).mpr h0) (iblk V c 0 t) (iblk V c 1 t) (iblk V c 2 t) (iblk V c 3 t),
       outFirst6 c (grid0.coords t) (ms0 t) (hs0 t) (ms1 t) (hs1 t) (ms2 t) (hs2 t) (ms3 t) (hs3 t) (ms4 t) (hs4 t) (ms5 t) (hs5 t) ((isFirst_iff t).mpr h0) (iblk V c 0 t) (iblk V c 1 t) (iblk V c 2 t) (iblk V c 3 t)) := by
  obtain ⟨n, hn⟩ := t
  cases n with
  | zero => exact rfl
  | succ n => exact absurd h0 (Nat.succ_ne_zero n)

theorem outsAt_later (c : Dev nD) (t : Fin cfg0.N) (h0 : ¬t.val = 0) :
    outsAt V c t.val t.isLt =
      (outLater5 c (grid0.coords t) (ms0 t) (hs0 t) (ms1 t) (hs1 t) (ms2 t) (hs2 t) (ms3 t) (hs3 t) (ms4 t) (hs4 t) (ms5 t) (hs5 t) (fun h => h0 ((isFirst_iff t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2,
       outLater6 c (grid0.coords t) (ms0 t) (hs0 t) (ms1 t) (hs1 t) (ms2 t) (hs2 t) (ms3 t) (hs3 t) (ms4 t) (hs4 t) (ms5 t) (hs5 t) (fun h => h0 ((isFirst_iff t).mp h)) (iblk V c 0 t) (iblk V c 1 t) (iblk V c 2 t) (iblk V c 3 t)
          (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact absurd rfl h0
  | succ n => exact rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = (outsAt V c t.val t.isLt).1 := by dsimp only [dat0]
theorem after_5 (c : Dev nD) (t : Fin cfg0.N) : (dat0 V c).after 5 t = (outsAt V c t.val t.isLt).2 := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq0]; try rfl) t d).trans
    (by unfold Dat.fetched Dat.blockOf iblk; rw [A_eq0]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq0]; try rfl) t d).trans
    (by unfold Dat.fetched Dat.blockOf iblk; rw [A_eq0]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq0]; try rfl) t d).trans
    (by unfold Dat.fetched Dat.blockOf iblk; rw [A_eq0]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq0]; try rfl) t d).trans
    (by unfold Dat.fetched Dat.blockOf iblk; rw [A_eq0]; try rfl)

/-- Past the first point an accumulator's staging buffer holds what the point before left: it is
    written back after the last point only. -/
theorem before_4_later (c : Dev nD) (t : Fin cfg0.N) (h0 : ¬t.val = 0) (d) :
    (dat0 V c).before 4 t d = (outsAt V c (t.val - 1) (Nat.lt_of_le_of_lt (Nat.sub_le _ _) t.isLt)).1 := by
  have hN : t.val < 48 := lt_of_lt_of_eq t.isLt (show cfg0.N = 48 from N_0)
  rw [Dat.before_out_kept _ 4 rfl t h0 (Bool.eq_false_iff.mpr fun h => by have := (flush0_4 _).mp h; dsimp only at this; omega)
    (fun _ => rfl) (fun _ _ => rfl)]
  dsimp only [dat0]
theorem before_5_later (c : Dev nD) (t : Fin cfg0.N) (h0 : ¬t.val = 0) (d) :
    (dat0 V c).before 5 t d = (outsAt V c (t.val - 1) (Nat.lt_of_le_of_lt (Nat.sub_le _ _) t.isLt)).2 := by
  have hN : t.val < 48 := lt_of_lt_of_eq t.isLt (show cfg0.N = 48 from N_0)
  rw [Dat.before_out_kept _ 5 rfl t h0 (Bool.eq_false_iff.mpr fun h => by have := (flush0_5 _).mp h; dsimp only at this; omega)
    (fun _ => rfl) (fun _ _ => rfl)]
  dsimp only [dat0]

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4, after_5]
  by_cases h0 : t.val = 0
  · rw [outsAt_first V c t h0]
    dsimp only
    unfold outFirst5 outFirst6
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((isFirst_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirst5 c _ _ _ _ _ _ _ _ _ _ _ _ _ _ _ _ _ _)
    · unfold owns; iexists _; isplitr
      swap; · iexact H5
      ipureintro; exact View.read_writes_of_cover _ _ _ _ _ (coverFirst6 c _ _ _ _ _ _ _ _ _ _ _ _ _ _ _ _ _ _)
  · rw [outsAt_later V c t h0]
    dsimp only
    simp only [before_4_later V c t h0, before_5_later V c t h0]
    unfold outLater5 outLater6
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((isFirst_iff t).mp h)) (iblk V c 0 t) (iblk V c 1 t) (iblk V c 2 t) (iblk V c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLater5 c _ _ _ _ _ _ _ _ _ _ _ _ _ _ _ _ _ _ _ _)
    · unfold owns; iexists _; isplitr
      swap; · iexact H5
      ipureintro; exact View.read_writes_of_cover _ _ _ _ _ (coverLater6 c _ _ _ _ _ _ _ _ _ _ _ _ _ _ _ _ _ _ _ _)

theorem body_obligation (c : Dev nD) : BodyObligation (dat0 (F := F) V c) (defs₀ (F := F)) Variants.none () Set.univ := fun t => by
  rw [bigSep_W0, bigSep_W0]
  exact sound_body V c t

end Region

end Cert.KernelIdeal.Fr

end
-- ==== Proof.KILaunch.lean ====
/-
  The launch. @main is two reshapes of the labels, the kernel region, and three host lines (two
  reshapes of the 1x1 accumulators to scalars and their quotient). The region is entered from every
  unscoped buffer held whole; the feature array, which stands behind windows 0 and 1, is dealt to
  them as the two halves of its share and joined again at the region's exit, where the two
  accumulators' arrays hold what the last grid point left.
-/
import proofs.«127347_j76373108458148_2_alg».proof.Proof.Gen.KernelIdeal.Launch
import proofs.«127347_j76373108458148_2_alg».proof.Proof.Gen.KernelIdeal.Skeleton
import proofs.«127347_j76373108458148_2_alg».proof.Proof.Gen.KernelIdeal.Points
import proofs.«127347_j76373108458148_2_alg».proof.Proof.KIDat
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The arrays one by one -/

section Split
variable (V : (c : Dev nD) → (b : Ref sig .tc) → Buf (Elt F) ((c : Thread nD τ).loc b))

/-- The five distinct buffers behind the six windows. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_v1) ↦{fullShare} V' main_v1) ∗ (((c : Thread nD τ).loc main_v2_0) ↦{fullShare} V' main_v2_0)
          ∗ (((c : Thread nD τ).loc main_v2_1) ↦{fullShare} V' main_v2_1)) := by
  unfold Pipeline.arrBufs
  exact bigSep_eq_bigSepL_of_eq [main_arg0, main_v0, main_v1, main_v2_0, main_v2_1] (by decide) (by decide) _

/-- Each window's share of its array: the two windows on the feature array hold a half each. -/
theorem share_0 (c : Dev nD) : (dat0 V c).share 0 = fullShare.left := by
  unfold Dat.share; rw [show (cfg0.win 0).isOut = false from rfl, if_neg Bool.false_ne_true]; dsimp only [dat0]
theorem share_1 (c : Dev nD) : (dat0 V c).share 1 = fullShare.right := by
  unfold Dat.share; rw [show (cfg0.win 1).isOut = false from rfl, if_neg Bool.false_ne_true]; dsimp only [dat0]
theorem share_2 (c : Dev nD) : (dat0 V c).share 2 = fullShare := by
  unfold Dat.share; rw [show (cfg0.win 2).isOut = false from rfl, if_neg Bool.false_ne_true]; dsimp only [dat0]
theorem share_3 (c : Dev nD) : (dat0 V c).share 3 = fullShare := by
  unfold Dat.share; rw [show (cfg0.win 3).isOut = false from rfl, if_neg Bool.false_ne_true]; dsimp only [dat0]
theorem share_4 (c : Dev nD) : (dat0 V c).share 4 = fullShare := by
  unfold Dat.share; rw [show (cfg0.win 4).isOut = true from rfl, if_pos rfl]
theorem share_5 (c : Dev nD) : (dat0 V c).share 5 = fullShare := by
  unfold Dat.share; rw [show (cfg0.win 5).isOut = true from rfl, if_pos rfl]

/-- The proof data's arrays, window by window, each at its share. -/
theorem arrays_eq6 (c : Dev nD) (G : (w : Fin cfg0.W) → Buf (Elt F) ((cfg0.win w).arr.view.loc (c : Thread nD τ))) :
    (dat0 V c).arrays G
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  have h : (dat0 V c).arrays G = bigSep Finset.univ fun w => (((c : Thread nD τ).loc (Pipeline.arrRef spec0 w)) ↦{(dat0 V c).share w} G w : sProp 𝕄) := by
    unfold Dat.arrays
    exact bigSep_congr fun w _ => by rw [(arr_whole0 w).set_eq_univ]
  rw [h, bigSep_W0, share_0, share_1, share_2, share_3, share_4, share_5]

end Split

/-! ## The buffer contents at each boundary of @main -/

/-- At launch. -/
abbrev W0 : Dev nD → Valuation τ sig (Elt F) := fun c b => (s₀ m ρ).mem ((c : Dev nD), b)
/-- After the two reshapes of the labels (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the two accumulators' arrays at what the pipeline leaves, every other buffer as entered. -/
def W2 (c : Dev nD) : Valuation τ sig (Elt F) :=
  Function.update (Function.update (W1 m ρ c) (Proc.devRef .tc main_v2_0) ((dat0 (V1 m ρ) c).arrAt 4 cfg0.N))
    (Proc.devRef .tc main_v2_1) ((dat0 (V1 m ρ) c).arrAt 5 cfg0.N)
theorem W2_v2_0 (c : Dev nD) : W2 m ρ c (Proc.devRef .tc main_v2_0) = (dat0 (V1 m ρ) c).arrAt 4 cfg0.N := by
  unfold W2; rw [Function.update_of_ne (StableHlo.devRef_ne_of_ne (by decide)), Function.update_self]
theorem W2_v2_1 (c : Dev nD) : W2 m ρ c (Proc.devRef .tc main_v2_1) = (dat0 (V1 m ρ) c).arrAt 5 cfg0.N := by
  unfold W2; rw [Function.update_self]
theorem W2_of_ne (c : Dev nD) (b : Ref sig .tc) (h0 : b ≠ main_v2_0) (h1 : b ≠ main_v2_1) :
    W2 m ρ c (Proc.devRef .tc b) = W1 m ρ c (Proc.devRef .tc b) := by
  unfold W2; rw [Function.update_of_ne (StableHlo.devRef_ne_of_ne h1), Function.update_of_ne (StableHlo.devRef_ne_of_ne h0)]
abbrev V2 : (c : Dev nD) → (b : Ref sig .tc) → Buf (Elt F) ((c : Thread nD τ).loc b) := fun c b => W2 m ρ c b
/-- After the three host lines that follow the region (the return). -/
abbrev W3 : Dev nD → Valuation τ sig (Elt F) := fun c => StableHlo.after hostOps1 (W2 m ρ c)

/-- Each array at the region's exit: the inputs' as entered, the accumulators' as the pipeline leaves them. -/
theorem arrAt_N (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c main_arg0 (by decide) (by decide)).symm)
  | ⟨1, _⟩ => ((dat0 (V1 m ρ) c).arrAt_in 1 rfl _).trans ((A_eq0 (V1 m ρ) c 1).trans (W2_of_ne m ρ c main_arg0 (by decide) (by decide)).symm)
  | ⟨2, _⟩ => ((dat0 (V1 m ρ) c).arrAt_in 2 rfl _).trans ((A_eq0 (V1 m ρ) c 2).trans (W2_of_ne m ρ c main_v0 (by decide) (by decide)).symm)
  | ⟨3, _⟩ => ((dat0 (V1 m ρ) c).arrAt_in 3 rfl _).trans ((A_eq0 (V1 m ρ) c 3).trans (W2_of_ne m ρ c main_v1 (by decide) (by decide)).symm)
  | ⟨4, _⟩ => (W2_v2_0 m ρ c).symm
  | ⟨5, _⟩ => (W2_v2_1 m ρ c).symm

/-- Off the windows' arrays the exit contents are the entry contents. -/
theorem V2_rest (c : Dev nD) (b : Ref sig .tc) (hb : b ∉ Finset.univ.image (Pipeline.arrRef spec0)) : V2 m ρ c b = V1 m ρ c b :=
  W2_of_ne m ρ c b (fun e => hb (e ▸ (by decide : main_v2_0 ∈ Finset.univ.image (Pipeline.arrRef spec0))))
    (fun e => hb (e ▸ (by decide : main_v2_1 ∈ Finset.univ.image (Pipeline.arrRef spec0))))

/-- ENTRY: every unscoped buffer whole at the entry contents is the windows' arrays, the feature
    array's share dealt in halves to the two windows on it, and the buffers no window stages. -/
theorem split_in (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs (0 : Fin 1) winFacts₀0.arr_unscoped c (V1 m ρ c), arrBufs_eq,
    show ((dat0 (V1 m ρ) c).arrAt · 0) = fun w => V1 m ρ c (Pipeline.arrRef spec0 w) from rfl, arrays_eq6]
  iintro ⟨⟨Ha, H0, H1, H4, H5⟩, Hrest⟩
  ihave Ha := (pointsTo_share (PosShare.mem_left_op_right fullShare)).1 $$ Ha
  icases Ha with ⟨Hl, Hr⟩
  isplitr [Hrest]
  swap; · iexact Hrest
  isplitl [Hl]; · iexact Hl
  isplitl [Hr]; · iexact Hr
  isplitl [H0]; · iexact H0
  isplitl [H1]; · iexact H1
  isplitl [H4]; · iexact H4
  iexact H5

/-- EXIT: the arrays at what the pipeline leaves and the buffers no window stages are every unscoped
    buffer whole at the exit contents; the two halves of the feature array's share join. -/
theorem join_out (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  rw [Pipeline.unscopedBufs_split₀ cfgs (0 : Fin 1) winFacts₀0.arr_unscoped c (V2 m ρ c), arrBufs_eq,
    show ((dat0 (V1 m ρ) c).arrAt · cfg0.N) = fun w => V2 m ρ c (Pipeline.arrRef spec0 w) from funext (arrAt_N m ρ c), arrays_eq6]
  iintro ⟨⟨Hl, Hr, H0, H1, H4, H5⟩, Hrest⟩
  isplitr [Hrest]
  swap
  · iapply (Entails.of_eq (show Pipeline.unscopedRest (Ix := Unit) (Name := ℕ) (U := UR sig nD τ) (Lvl := ℕ) spec0 c (V1 m ρ c) = Pipeline.unscopedRest spec0 c (V2 m ρ c) from by
      unfold Pipeline.unscopedRest
      exact bigSep_congr fun b hb => by rw [V2_rest m ρ c b (Finset.mem_sdiff.mp hb).2]))
    iexact Hrest
  isplitl [Hl Hr]
  · iapply (pointsTo_share (PosShare.mem_left_op_right fullShare)).2
    isplitl [Hl]; · iexact Hl
    iexact Hr
  isplitl [H0]; · iexact H0
  isplitl [H1]; · iexact H1
  isplitl [H4]; · iexact H4
  iexact H5

/-! ## The proof data family and the thread state -/

abbrev adm : (p : Fin 1) → (pcfgs (F := F) p).Adm := fun p => (cfgs p).toPCfg_adm
abbrev pdats : (p : Fin 1) → (c : Dev nD) → Dat τ (Elt F) Unit ℕ (UR sig nD τ) ℕ (Pipeline.pin (pcfgs (F := F)) adm p) c :=
  fun _ c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := split_in m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join_out m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates,
    nothing faulting, with every unscoped buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched -/

/-- No host line and no write-back touches `main_arg0`: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host line and no write-back touches `main_arg1`: it ends as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host line and no write-back touches `main_arg2`: it ends as launched. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option backward.isDefEq.respectTransparency.types false in
/-- THE FRAME: every weakly fair execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run m ρ)

end Cert.KernelIdeal.Fr

end
-- ==== Proof.KIPieces.lean ====
/-
  What each control case leaves in the two accumulators, named: at the first grid point the block's
  contribution added to the zero the case has just stored; at a later point added to what the
  accumulator held on entry. The contribution is the body's arithmetic on the point's input blocks.
-/
import proofs.«127347_j76373108458148_2_alg».proof.Proof.Gen.KernelIdeal.Launch
import proofs.«127347_j76373108458148_2_alg».proof.Proof.Gen.KernelIdeal.Skeleton
import proofs.«127347_j76373108458148_2_alg».proof.Proof.Gen.KernelIdeal.Points
import proofs.«127347_j76373108458148_2_alg».proof.Proof.KIDat
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem z2 : (![0, 0] : Fin 2 → Nat) = fun _ => 0 := funext fun a => by match a with | ⟨0, _⟩ => rfl | ⟨1, _⟩ => rfl

/-- The triplet-sum accumulator's update: the entering value plus the block's masked hinge sum. -/
def step5 (i : grid0.Coords) (x0 : Vec F S8x128 .f32) (x1 : Vec F S384x128 .f32) (x2 : Vec F S8x1 .i32) (x3 : Vec F S1x384 .i32) (a5 : Vec F S1x1 .f32) : Vec F S1x1 .f32 :=
  k0_pay2 (k0_pay8 i x2 x3) (k0_pay9 x2 x3) (k0_pay10 x0 x1) (k0_pay11 x0 x1) a5
/-- The count accumulator's update: the entering value plus the block's number of valid triplets. -/
def step6 (i : grid0.Coords) (x2 : Vec F S8x1 .i32) (x3 : Vec F S1x384 .i32) (a6 : Vec F S1x1 .f32) : Vec F S1x1 .f32 :=
  k0_pay3 (k0_pay8 i x2 x3) (k0_pay9 x2 x3) a6

theorem outFirst5_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) :
    outFirst5 c i arg1 harg1 arg2 harg2 arg3 harg3 arg4 harg4 arg5 harg5 arg6 harg6 hc x0 x1 x2 x3 = step5 i x0 x1 x2 x3 (k0_pay4 (F := F)) := by
  unfold outFirst5
  rw [View.read_writes_eq_canon _ _ _ (coverFirst5 c i arg1 harg1 arg2 harg2 arg3 harg3 arg4 harg4 arg5 harg5 arg6 harg6 hc x0 x1 x2 x3)]
  unfold runFirst
  dsimp only
  sl_unfold_words
  rw [View.canon_cons_unit_zero z2]
  simp only [View.readAt_eq_ld, harg1.read_unread, harg2.read_unread, harg3.read_unread, harg4.read_unread,
    View.ld_unit_zero (S := S8x128) z2, View.ld_unit_zero (S := S384x128) z2, View.ld_unit_zero (S := S8x1) z2,
    View.ld_unit_zero (S := S1x384) z2]
  rw [View.readCov_unit_zero (S := S1x1) arg5.view z2]
  rfl

theorem outFirst6_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : isFirst i) (x0 : Vec F S8x128 .f32) (x1 : Vec F S384x128 .f32) (x2 : Vec F S8x1 .i32) (x3 : Vec F S1x384 .i32) :
    outFirst6 c i arg1 harg1 arg2 harg2 arg3 harg3 arg4 harg4 arg5 harg5 arg6 harg6 hc x0 x1 x2 x3 = step6 i x2 x3 (k0_pay5 (F := F)) := by
  unfold outFirst6
  rw [View.read_writes_eq_canon _ _ _ (coverFirst6 c i arg1 harg1 arg2 harg2 arg3 harg3 arg4 harg4 arg5 harg5 arg6 harg6 hc x0 x1 x2 x3)]
  unfold runFirst
  dsimp only
  sl_unfold_words
  rw [View.canon_cons_unit_zero z2]
  simp only [View.readAt_eq_ld, harg1.read_unread, harg2.read_unread, harg3.read_unread, harg4.read_unread,
    View.ld_unit_zero (S := S8x128) z2, View.ld_unit_zero (S := S384x128) z2, View.ld_unit_zero (S := S8x1) z2,
    View.ld_unit_zero (S := S1x384) z2]
  rw [View.readCov_unit_zero (S := S1x1) arg6.view z2]
  rfl

theorem outLater5_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) :
    outLater5 c i arg1 harg1 arg2 harg2 arg3 harg3 arg4 harg4 arg5 harg5 arg6 harg6 hc x0 x1 x2 x3 a5 a6 = step5 i x0 x1 x2 x3 a5 := by
  unfold outLater5
  rw [View.read_writes_eq_canon _ _ _ (coverLater5 c i arg1 harg1 arg2 harg2 arg3 harg3 arg4 harg4 arg5 harg5 arg6 harg6 hc x0 x1 x2 x3 a5 a6)]
  unfold runLater
  dsimp only
  sl_unfold_words
  rw [View.canon_cons_unit_zero z2]
  simp only [View.readAt_eq_ld, harg1.read_unread, harg2.read_unread, harg3.read_unread, harg4.read_unread,
    harg5.read_unread, harg6.read_unread,
    View.ld_unit_zero (S := S8x128) z2, View.ld_unit_zero (S := S384x128) z2, View.ld_unit_zero (S := S8x1) z2,
    View.ld_unit_zero (S := S1x384) z2, View.ld_unit_zero (S := S1x1) z2]
  rfl

theorem outLater6_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x1 .i32) (harg3 : arg3.IsWhole) (arg4 : Memref sig .tc .vmem S1x384 .i32) (harg4 : arg4.IsWhole)
    (arg5 : Memref sig .tc .vmem S1x1 .f32) (harg5 : arg5.IsWhole) (arg6 : Memref sig .tc .vmem S1x1 .f32) (harg6 : arg6.IsWhole) (hc : ¬isFirst i) (x0 : Vec F S8x128 .f32) (x1 : Vec F S384x128 .f32) (x2 : Vec F S8x1 .i32) (x3 : Vec F S1x384 .i32) (a5 a6 : Vec F S1x1 .f32) :
    outLater6 c i arg1 harg1 arg2 harg2 arg3 harg3 arg4 harg4 arg5 harg5 arg6 harg6 hc x0 x1 x2 x3 a5 a6 = step6 i x2 x3 a6 := by
  unfold outLater6
  rw [View.read_writes_eq_canon _ _ _ (coverLater6 c i arg1 harg1 arg2 harg2 arg3 harg3 arg4 harg4 arg5 harg5 arg6 harg6 hc x0 x1 x2 x3 a5 a6)]
  unfold runLater
  dsimp only
  sl_unfold_words
  rw [View.canon_cons_unit_zero z2]
  simp only [View.readAt_eq_ld, harg1.read_unread, harg2.read_unread, harg3.read_unread, harg4.read_unread,
    harg5.read_unread, harg6.read_unread,
    View.ld_unit_zero (S := S8x128) z2, View.ld_unit_zero (S := S384x128) z2, View.ld_unit_zero (S := S8x1) z2,
    View.ld_unit_zero (S := S1x384) z2, View.ld_unit_zero (S := S1x1) z2]
  rfl

end Cert.KernelIdeal.Fr

end
-- ==== Proof.KIBlocks.lean ====
/-
  The input blocks, the accumulation and the final arrays. At grid point t window 0 holds rows
  8t .. 8t+7 of the feature matrix, window 1 the whole matrix, window 2 the labels of those rows
  (as a column of the labels reshaped to 384x1), window 3 all labels (reshaped to 1x384). The two
  accumulators after point t are the updates of what point t-1 left, from zero at point 0; their
  arrays are written back once, after point 47, so they end holding the accumulators after point 47.
-/
import proofs.«127347_j76373108458148_2_alg».proof.Proof.Gen.KernelIdeal.Launch
import proofs.«127347_j76373108458148_2_alg».proof.Proof.Gen.KernelIdeal.Skeleton
import proofs.«127347_j76373108458148_2_alg».proof.Proof.Gen.KernelIdeal.Points
import proofs.«127347_j76373108458148_2_alg».proof.Proof.KILaunch
import proofs.«127347_j76373108458148_2_alg».proof.Proof.KIPieces
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The printed index maps, decided over the 48 grid points: windows 0 and 2 move with the point
    along axis 0, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid coordinate of point t is t. -/
theorem coord_eq : ∀ t : Fin cfg0.N, ((grid0.coords t) 0).val = t.val :=
  (by decide +kernel : ∀ t : Fin grid0.N, ((grid0.coords t) 0).val = t.val)

section Region
variable (V : (c : Dev nD) → (b : Ref sig .tc) → Buf (Elt F) ((c : Thread nD τ).loc b))

theorem iblk0_apply (c : Dev nD) (t : Fin cfg0.N) (j : S8x128.Idx) (i : S384x128.Idx)
    (h0 : (i 0).val = t.val * 8 + (j 0).val) (h1 : (i 1).val = (j 1).val) :
    iblk V c 0 t j = V c main_arg0 i := by
  obtain ⟨e0, e1, -⟩ := idx_facts t
  unfold iblk
  show V c main_arg0 (((cfg0.win 0).blk t).view.emb j) = V c main_arg0 i
  refine congrArg _ (funext fun a => Fin.ext ?_)
  match a with
  | ⟨0, _⟩ => show win0_0.index t (0 : Fin 2) * 8 + 1 * (j 0).val = (i 0).val; omega
  | ⟨1, _⟩ => show win0_0.index t (1 : Fin 2) * 128 + 1 * (j 1).val = (i 1).val; omega

theorem iblk1_apply (c : Dev nD) (t : Fin cfg0.N) (j : S384x128.Idx) :
    iblk V c 1 t j = V c main_arg0 j := by
  obtain ⟨-, -, e0, e1, -⟩ := idx_facts t
  unfold iblk
  show V c main_arg0 (((cfg0.win 1).blk t).view.emb j) = V c main_arg0 j
  refine congrArg _ (funext fun a => Fin.ext ?_)
  match a with
  | ⟨0, _⟩ => show win0_1.index t (0 : Fin 2) * 384 + 1 * (j 0).val = (j 0).val; omega
  | ⟨1, _⟩ => show win0_1.index t (1 : Fin 2) * 128 + 1 * (j 1).val = (j 1).val; omega

theorem iblk2_apply (c : Dev nD) (t : Fin cfg0.N) (j : S8x1.Idx) (i : S384x1.Idx)
    (h0 : (i 0).val = t.val * 8 + (j 0).val) (h1 : (i 1).val = (j 1).val) :
    iblk V c 2 t j = V c main_v0 i := by
  obtain ⟨-, -, -, -, e0, e1, -⟩ := idx_facts t
  unfold iblk
  show V c main_v0 (((cfg0.win 2).blk t).view.emb j) = V c main_v0 i
  refine congrArg _ (funext fun a => Fin.ext ?_)
  match a with
  | ⟨0, _⟩ => show win0_2.index t (0 : Fin 2) * 8 + 1 * (j 0).val = (i 0).val; omega
  | ⟨1, _⟩ => show win0_2.index t (1 : Fin 2) * 1 + 1 * (j 1).val = (i 1).val; omega

theorem iblk3_apply (c : Dev nD) (t : Fin cfg0.N) (j : S1x384.Idx) :
    iblk V c 3 t j = V c main_v1 j := by
  obtain ⟨-, -, -, -, -, -, e0, e1, -⟩ := idx_facts t
  unfold iblk
  show V c main_v1 (((cfg0.win 3).blk t).view.emb j) = V c main_v1 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 384 + 1 * (j 1).val = (j 1).val; omega

/-! ## The accumulation, named -/

theorem outsAt_zero (c : Dev nD) (hn : 0 < cfg0.N) :
    outsAt V c 0 hn = (step5 (grid0.coords ⟨0, hn⟩) (iblk V c 0 ⟨0, hn⟩) (iblk V c 1 ⟨0, hn⟩) (iblk V c 2 ⟨0, hn⟩) (iblk V c 3 ⟨0, hn⟩) (k0_pay4 (F := F)),
      step6 (grid0.coords ⟨0, hn⟩) (iblk V c 2 ⟨0, hn⟩) (iblk V c 3 ⟨0, hn⟩) (k0_pay5 (F := F))) := by
  rw [outsAt, outFirst5_eq, outFirst6_eq]

theorem outsAt_succ (c : Dev nD) (n : ℕ) (hn : n + 1 < cfg0.N) :
    outsAt V c (n + 1) hn = (step5 (grid0.coords ⟨n + 1, hn⟩) (iblk V c 0 ⟨n + 1, hn⟩) (iblk V c 1 ⟨n + 1, hn⟩) (iblk V c 2 ⟨n + 1, hn⟩) (iblk V c 3 ⟨n + 1, hn⟩) (outsAt V c n (Nat.lt_of_succ_lt hn)).1,
      step6 (grid0.coords ⟨n + 1, hn⟩) (iblk V c 2 ⟨n + 1, hn⟩) (iblk V c 3 ⟨n + 1, hn⟩) (outsAt V c n (Nat.lt_of_succ_lt hn)).2) := by
  rw [outsAt, outLater5_eq, outLater6_eq]

/-! ## The accumulators' arrays at the region's exit -/

theorem mem_blk4 (t : Fin cfg0.N) (i : S1x1.Idx) : i ∈ ((cfg0.win 4).blk t).view.set := by
  obtain ⟨-, -, -, -, -, -, -, -, e0, e1, -⟩ := idx_facts t
  show i ∈ ((View.whole main_v2_0).slice (win0_4.rect t)).set
  rw [View.set_slice_whole, Rect.mem_set_unit]
  intro a
  match a with
  | ⟨0, _⟩ => show win0_4.index t (0 : Fin 2) * 1 ≤ (i 0).val ∧ (i 0).val < win0_4.index t (0 : Fin 2) * 1 + 1; have := (i 0).isLt; change (i 0).val < 1 at this; omega
  | ⟨1, _⟩ => show win0_4.index t (1 : Fin 2) * 1 ≤ (i 1).val ∧ (i 1).val < win0_4.index t (1 : Fin 2) * 1 + 1; have := (i 1).isLt; change (i 1).val < 1 at this; omega

theorem mem_blk5 (t : Fin cfg0.N) (i : S1x1.Idx) : i ∈ ((cfg0.win 5).blk t).view.set := by
  obtain ⟨-, -, -, -, -, -, -, -, -, -, e0, e1⟩ := idx_facts t
  show i ∈ ((View.whole main_v2_1).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; have := (i 0).isLt; change (i 0).val < 1 at this; omega
  | ⟨1, _⟩ => show win0_5.index t (1 : Fin 2) * 1 ≤ (i 1).val ∧ (i 1).val < win0_5.index t (1 : Fin 2) * 1 + 1; have := (i 1).isLt; change (i 1).val < 1 at this; omega

theorem h47 : 47 < cfg0.N := by show 47 < grid0.N; rw [N_0]; decide

/-- What the write-back after the last point carries: the accumulator after point 47. -/
theorem flushed4_eq (c : Dev nD) (t : Fin cfg0.N) (hf : (cfg0.win 4).flush t = true) :
    (dat0 V c).flushed 4 t = ((cfg0.win 4).blk t).view.read (Elt F) (outsAt V c 47 h47).1 := by
  have ht : t.val = 47 := by
    have h1 := (flush0_4 t).mp hf
    have h2 : t.val < 48 := lt_of_lt_of_eq t.isLt N_0
    omega
  obtain ⟨e0, e1⟩ : win0_4.index t (0 : Fin 2) = 0 ∧ win0_4.index t (1 : Fin 2) = 0 := by
    obtain ⟨-, -, -, -, -, -, -, -, e0, e1, -⟩ := idx_facts t; exact ⟨e0, e1⟩
  have e : ∀ (n : ℕ) (hn : n < cfg0.N), n = t.val → outsAt V c n hn = outsAt V c t.val t.isLt := by
    intro n hn h; subst h; rfl
  show (cfg0.win 4).cut (grid0.coords t) ((dat0 V c).after 4 t) = _
  rw [after_4, e 47 h47 ht.symm]
  generalize outsAt V c t.val t.isLt = O
  funext j
  show O.1 j = O.1 (((cfg0.win 4).blk t).view.emb j)
  refine congrArg _ (funext fun a => Fin.ext ?_)
  match a with
  | ⟨0, _⟩ => show (j 0).val = win0_4.index t (0 : Fin 2) * 1 + 1 * (j 0).val; omega
  | ⟨1, _⟩ => show (j 1).val = win0_4.index t (1 : Fin 2) * 1 + 1 * (j 1).val; omega

theorem cover4 (c : Dev nD) (i : S1x1.Idx) : ∃ t : Fin cfg0.N, (cfg0.win 4).flush t = true ∧ i ∈ ((cfg0.win 4).blk t).view.set :=
  ⟨⟨47, h47⟩, (flush0_4 _).mpr rfl, mem_blk4 _ i⟩

set_option maxHeartbeats 1000000 in
theorem final4 (c : Dev nD) : (dat0 V c).arrAt 4 cfg0.N = (outsAt V c 47 h47).1 :=
  (dat0 V c).arrAt_eq_of_cover 4 _ (fun t hf => flushed4_eq V c t hf) (cover4 c)

/-- What the write-back after the last point carries: the accumulator after point 47. -/
theorem flushed5_eq (c : Dev nD) (t : Fin cfg0.N) (hf : (cfg0.win 5).flush t = true) :
    (dat0 V c).flushed 5 t = ((cfg0.win 5).blk t).view.read (Elt F) (outsAt V c 47 h47).2 := by
  have ht : t.val = 47 := by
    have h1 := (flush0_5 t).mp hf
    have h2 : t.val < 48 := lt_of_lt_of_eq t.isLt N_0
    omega
  obtain ⟨e0, e1⟩ : win0_5.index t (0 : Fin 2) = 0 ∧ win0_5.index t (1 : Fin 2) = 0 := by
    obtain ⟨-, -, -, -, -, -, -, -, -, -, e0, e1⟩ := idx_facts t; exact ⟨e0, e1⟩
  have e : ∀ (n : ℕ) (hn : n < cfg0.N), n = t.val → outsAt V c n hn = outsAt V c t.val t.isLt := by
    intro n hn h; subst h; rfl
  show (cfg0.win 5).cut (grid0.coords t) ((dat0 V c).after 5 t) = _
  rw [after_5, e 47 h47 ht.symm]
  generalize outsAt V c t.val t.isLt = O
  funext j
  show O.2 j = O.2 (((cfg0.win 5).blk t).view.emb j)
  refine congrArg _ (funext fun a => Fin.ext ?_)
  match a with
  | ⟨0, _⟩ => show (j 0).val = win0_5.index t (0 : Fin 2) * 1 + 1 * (j 0).val; omega
  | ⟨1, _⟩ => show (j 1).val = win0_5.index t (1 : Fin 2) * 1 + 1 * (j 1).val; omega

theorem cover5 (c : Dev nD) (i : S1x1.Idx) : ∃ t : Fin cfg0.N, (cfg0.win 5).flush t = true ∧ i ∈ ((cfg0.win 5).blk t).view.set :=
  ⟨⟨47, h47⟩, (flush0_5 _).mpr rfl, mem_blk5 _ i⟩

set_option maxHeartbeats 1000000 in
theorem final5 (c : Dev nD) : (dat0 V c).arrAt 5 cfg0.N = (outsAt V c 47 h47).2 :=
  (dat0 V c).arrAt_eq_of_cover 5 _ (fun t hf => flushed5_eq V c t hf) (cover5 c)

end Region

/-! ## The host lines around the region -/

variable (m : (ℓ : Loc nD τ sig) → Buf (Elt F) ℓ) (ρ : Dev nD → PrngReg)

/-- The region finds the feature array as launched, -/
theorem V1_arg0 (c : Dev nD) : V1 m ρ c main_arg0 = m ((c : Thread nD τ).loc main_arg0) := by
  show StableHlo.after hostOps0 (W0 m ρ c) (Proc.devRef .tc main_arg0) = _
  after_results
/-- the labels as a 384x1 column, -/
theorem V1_v0 (c : Dev nD) : (V1 m ρ c main_v0 : S384x1.Idx → Elt F .i32)
    = shapeCast S384x1 (m ((c : Thread nD τ).loc main_arg2)) Facts₀.shapeCasts_S384_S384x1 := by
  show StableHlo.after hostOps0 (W0 m ρ c) (Proc.devRef .tc main_v0) = _
  after_results
  rfl
/-- and as a 1x384 row. -/
theorem V1_v1 (c : Dev nD) : (V1 m ρ c main_v1 : S1x384.Idx → Elt F .i32)
    = shapeCast S1x384 (m ((c : Thread nD τ).loc main_arg2)) Facts₀.shapeCasts_S384_S1x384 := by
  show StableHlo.after hostOps0 (W0 m ρ c) (Proc.devRef .tc main_v1) = _
  after_results
  rfl

/-- The returned scalar: the quotient of the two accumulators' arrays read as scalars. -/
theorem W3_v5 (c : Dev nD) : (W3 m ρ c (Proc.devRef .tc main_v5) : S_.Idx → Elt F .f32)
    = Host.divf (F := F) (shapeCast S_ ((dat0 (V1 m ρ) c).arrAt 4 cfg0.N) Facts₀.shapeCasts_S1x1_S_)
        (shapeCast S_ ((dat0 (V1 m ρ) c).arrAt 5 cfg0.N) Facts₀.shapeCasts_S1x1_S_) := by
  show StableHlo.after hostOps1 (W2 m ρ c) (Proc.devRef .tc main_v5) = _
  after_results
  rw [W2_v2_0, W2_v2_1]
  rfl

end Cert.KernelIdeal.Fr

end
-- ==== Proof.Spec.lean ====
/-
  The batch-all triplet loss over 384 feature rows of width 128 with integer labels, as one function
  of the two argument arrays on the extended reals.

  For rows i, j: the squared norm of row i is the sum of its squares, the Gram entry is the inner
  product of rows i and j, and the squared distance is max(|x_i|^2 + |x_j|^2 - 2 <x_i, x_j>, 0).
  A triplet (anchor i, positive j, negative k) is valid when y_i = y_j, i ≠ j and y_i ≠ y_k; its loss
  is max(d(i,j) - d(i,k) + margin, 0). The result is the sum of the valid triplets' losses divided
  by the number of valid triplets. Validity enters as a factor 0 or 1, so that a masked sum and a
  selected sum are the same thing: on the extended reals z * 1 = z and z * 0 = 0 for every z.
  Only commutativity and associativity of the sum are used to regroup it, so no finiteness is needed.
-/
import Idealize.ShloMosaic.PureOps.Ideal
import Idealize.ShloMosaic.Lib.ValueIdx

noncomputable section

namespace Cert.Triplet

open Idealize.ShloMosaic Idealize.ShloMosaic.ValueIdx

variable (x : (⟨2, ![384, 128]⟩ : Shape).Idx → EReal) (y : (⟨1, ![384]⟩ : Shape).Idx → BitVec 32)

/-- The literal 2 of the distance formula and the margin 0.2 as the binary value of its f32 word
    (the same word stands in both programs, so it is never evaluated). -/
def two : EReal := Ideal.ofBits .f32 0x40000000#32
def margin : EReal := Ideal.ofBits .f32 0x3E4CCCCD#32

/-- Squared norm of row `i`. -/
def rowSq (i : Fin 384) : EReal := ∑ k : Fin 128, x (ix2 i k) * x (ix2 i k)
/-- Inner product of rows `i` and `j`. -/
def gram (i j : Fin 384) : EReal := ∑ k : Fin 128, x (ix2 i k) * x (ix2 j k)
/-- Squared distance of rows `i` and `j`, clamped at zero. -/
def dist (i j : Fin 384) : EReal := max ((rowSq x i + rowSq x j) - two * gram x i j) 0
/-- The hinge of a triplet. -/
def trip (i j k : Fin 384) : EReal := max ((dist x i j - dist x i k) + margin) 0
/-- 1 when `j` is a positive for anchor `i` (same label, another row), else 0. -/
def posI (i j : Fin 384) : EReal := if y (ix1 i) = y (ix1 j) ∧ i ≠ j then 1 else 0
/-- 1 when `k` is a negative for anchor `i` (another label), else 0. -/
def negI (i k : Fin 384) : EReal := if y (ix1 i) = y (ix1 k) then 0 else 1
/-- Anchor `i`'s share of the loss sum and of the count. -/
def rowTotal (i : Fin 384) : EReal := ∑ j : Fin 384, ∑ k : Fin 384, trip x i j k * (posI y i j * negI y i k)
def rowCount (i : Fin 384) : EReal := ∑ j : Fin 384, ∑ k : Fin 384, posI y i j * negI y i k
def total : EReal := ∑ i : Fin 384, rowTotal x y i
def count : EReal := ∑ i : Fin 384, rowCount y i
/-- The mean over the valid triplets. -/
def result : EReal := Ideal.div (total x y) (count y)

end Cert.Triplet

end
-- ==== Proof.KIReduce.lean ====
/-
  The two accumulator updates at one grid point read as sums on the extended reals: the entering
  value plus the sum, over the block's 8 anchors and all pairs (p, n) of the 384 rows, of the hinge
  max(d(a,p) - d(a,n) + margin, 0) times the validity factor, and likewise of the validity factor
  alone. Each lane reduction starts from the zero word, which is the sum's neutral element.
-/
import proofs.«127347_j76373108458148_2_alg».proof.Proof.Gen.KernelIdeal.Skeleton
import proofs.«127347_j76373108458148_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.Pipeline

/-- The one index of a 1x1 array. -/
theorem idx11 (j : S1x1.Idx) : j = ix2 0 0 := by
  funext a
  apply Fin.ext
  match a with
  | ⟨0, _⟩ => have := (j 0).isLt; show (j 0).val = 0; change (j 0).val < 1 at this; omega
  | ⟨1, _⟩ => have := (j 1).isLt; show (j 1).val = 0; change (j 1).val < 1 at this; omega

/-- A length-1 vector viewed as a 1x1 matrix. -/
theorem cast_1_11 (v : FVec Ideal S1 .f32) (h : S1.ShapeCasts S1x1) : shapeCast S1x1 v h (ix2 0 0) = v (ix1 0) :=
  shapeCast_apply v h (ix2 0 0) (ix1 0) (by rfl)

/-- A length-8 vector viewed as an 8x1 column. -/
theorem cast_8_81 (v : FVec Ideal S8 .f32) (h : S8.ShapeCasts S8x1) (a : Fin 8) : shapeCast S8x1 v h (ix2 a 0) = v (ix1 a) :=
  shapeCast_apply v h (ix2 a 0) (ix1 a) (by
    rw [Shape.rowMajor_val_one, Shape.rowMajor_val_two]; simp)

/-- The sum down the 8x1 column. -/
theorem red_81 (w : FVec Ideal S8x1 .f32) (h : S8x1.Reduces [0] S1) (hφ : FKind.Formats .f32)
    (hacc : (0x00000000#32 : BitVec 32) = 0x00000000#32) :
    multiReduction .add [0] S1 w 0x00000000#32 h hφ hacc (ix1 0) = ∑ a : Fin 8, w (ix2 a 0) := by
  refine (Ideal.multiReduction_add_single w 0x00000000#32 h hφ hacc (ix1 0)).trans ?_
  exact Finset.sum_congr rfl fun a _ => congrArg w (funext fun d => Fin.ext (by match d with | ⟨0, _⟩ => rfl | ⟨1, _⟩ => rfl))

/-- The sum along each row of an 8x384 matrix. -/
theorem red_8x384 (u : FVec Ideal S8x384 .f32) (h : S8x384.Reduces [1] S8) (hφ : FKind.Formats .f32)
    (hacc : (0x00000000#32 : BitVec 32) = 0x00000000#32) (a : Fin 8) :
    multiReduction .add [1] S8 u 0x00000000#32 h hφ hacc (ix1 a) = ∑ p : Fin 384, u (ix2 a p) := by
  refine (Ideal.multiReduction_add_single u 0x00000000#32 h hφ hacc (ix1 a)).trans ?_
  exact Finset.sum_congr rfl fun p _ => congrArg u (funext fun d => Fin.ext (by match d with | ⟨0, _⟩ => rfl | ⟨1, _⟩ => rfl))

/-- The sum along the last axis of an 8x384x384 array. -/
theorem red_8x384x384 (z : FVec Ideal S8x384x384 .f32) (h : S8x384x384.Reduces [2] S8x384) (hφ : FKind.Formats .f32)
    (hacc : (0x00000000#32 : BitVec 32) = 0x00000000#32) (a : Fin 8) (p : Fin 384) :
    multiReduction .add [2] S8x384 z 0x00000000#32 h hφ hacc (ix2 a p) = ∑ n : Fin 384, z (ix3 a p n) := by
  refine (Ideal.multiReduction_add_single z 0x00000000#32 h hφ hacc (ix2 a p)).trans ?_
  exact Finset.sum_congr rfl fun n _ => congrArg z (funext fun d => Fin.ext (by match d with | ⟨0, _⟩ => rfl | ⟨1, _⟩ => rfl | ⟨2, _⟩ => rfl))

/-- The three nested reductions of an 8x384x384 array down to its one total. -/
theorem total_of (z : FVec Ideal S8x384x384 .f32) :
    shapeCast S1x1 (multiReduction .add [0] S1 (shapeCast S8x1 (multiReduction .add [1] S8
        (multiReduction .add [2] S8x384 z 0x00000000#32 Facts₀.reduces_S8x384x384_S8x384 (.inl rfl) rfl)
        0x00000000#32 Facts₀.reduces_S8x384_S8 (.inl rfl) rfl) Facts₀.shapeCasts_S8_S8x1)
        0x00000000#32 Facts₀.reduces_S8x1_S1 (.inl rfl) rfl) Facts₀.shapeCasts_S1_S1x1 (ix2 0 0)
      = ∑ a : Fin 8, ∑ p : Fin 384, ∑ n : Fin 384, z (ix3 a p n) := by
  refine (cast_1_11 _ _).trans ?_
  refine (red_81 _ _ _ _).trans ?_
  refine Finset.sum_congr rfl fun a _ => ?_
  refine (cast_8_81 _ _ a).trans ?_
  refine (red_8x384 _ _ _ _ a).trans ?_
  exact Finset.sum_congr rfl fun p _ => red_8x384x384 _ _ _ _ a p

/-- The triplet-sum update: the entering value plus the block's masked hinge sum. -/
theorem pay2_apply (v35 v36 : IVec S8x384 1) (v39 v40 : FVec Ideal S8x384x384 .f32) (v66 : Vec Ideal S1x1 .f32) (j : S1x1.Idx) :
    k0_pay2 (F := Ideal) v35 v36 v39 v40 v66 j
      = v66 (ix2 0 0) + ∑ a : Fin 8, ∑ p : Fin 384, ∑ n : Fin 384,
          max ((v39 (ix3 a p n) - v40 (ix3 a p n)) + Cert.Triplet.margin) 0 * k0_pay1 (F := Ideal) v35 v36 (ix3 a p n) := by
  obtain rfl := idx11 j
  unfold k0_pay2
  refine congrArg₂ (· + ·) (congrFun (shapeCast_self v66 _) _) ?_
  refine (total_of _).trans ?_
  refine Finset.sum_congr rfl fun a _ => Finset.sum_congr rfl fun p _ => Finset.sum_congr rfl fun n _ => ?_
  show max ((v39 (ix3 a p n) - v40 (ix3 a p n)) + Ideal.ofBits .f32 0x3E4CCCCD#32) (Ideal.ofBits .f32 0x00000000#32)
      * k0_pay1 (F := Ideal) v35 v36 (ix3 a p n) = _
  rw [Ideal.ofBits_zero_f32]
  rfl

/-- The count update: the entering value plus the block's number of valid triplets. -/
theorem pay3_apply (v35 v36 : IVec S8x384 1) (v70 : Vec Ideal S1x1 .f32) (j : S1x1.Idx) :
    k0_pay3 (F := Ideal) v35 v36 v70 j
      = v70 (ix2 0 0) + ∑ a : Fin 8, ∑ p : Fin 384, ∑ n : Fin 384, k0_pay1 (F := Ideal) v35 v36 (ix3 a p n) := by
  obtain rfl := idx11 j
  unfold k0_pay3
  refine congrArg₂ (· + ·) (congrFun (shapeCast_self v70 _) _) ?_
  exact total_of _

end Cert.KernelIdeal.Val

end
-- ==== Proof.KIDist.lean ====
/-
  The distance block of the kernel body, read at an index.

  At one grid point the body holds an 8-row block of the feature matrix (rows 8t .. 8t+7) and the
  whole 384 x 128 matrix. It forms, for a block row a and a matrix row p,
      max ((|block row a|^2 + |row p|^2) - 2 * <block row a, row p>, 0),
  the squared norms being sums of squares along the 128 lanes and the inner product a contraction of
  the block with the transposed matrix into a zero accumulator. This is the specification's squared
  distance of rows 8t+a and p. The body then repeats this [8, 384] array along a new last axis
  (entry (a, p, n) is the distance of rows 8t+a and p) and along a new middle axis (entry (a, p, n)
  is the distance of rows 8t+a and n). No arithmetic law is used: both sides are the same expression
  once every layout operation has been read at its index.
-/
import proofs.«127347_j76373108458148_2_alg».proof.Proof.Gen.KernelIdeal.Skeleton
import proofs.«127347_j76373108458148_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- Row a of the block at grid point t is row 8t + a of the matrix. -/
def row (t : Fin 48) (a : Fin 8) : Fin 384 := ⟨8 * t.val + a.val, by have := t.isLt; have := a.isLt; omega⟩

/-- Its value. -/
theorem row_val (t : Fin 48) (a : Fin 8) : (row t a).val = 8 * t.val + a.val := rfl

/-! ## The non-pointwise operations, each read at an index -/

/-- The lane sum of an 8 x 128 array at row a: the sum over the 128 lanes. -/
theorem laneSum8_apply (v : FVec Ideal S8x128 .f32) (a : Fin 8) :
    multiReduction .add [1] S8 v 0x00000000#32 reduces_S8x128_S8 (.inl rfl) rfl (ix1 a)
      = ∑ k : Fin 128, v (ix2 a k) := by
  refine (Ideal.multiReduction_add_single v _ reduces_S8x128_S8 _ _ (ix1 a)).trans ?_
  refine Finset.sum_congr rfl fun k _ => congrArg v ?_
  funext b
  match b with
  | ⟨0, _⟩ => rfl
  | ⟨1, _⟩ => rfl

/-- The lane sum of a 384 x 128 array at row p. -/
theorem laneSum384_apply (v : FVec Ideal S384x128 .f32) (p : Fin 384) :
    multiReduction .add [1] S384 v 0x00000000#32 reduces_S384x128_S384 (.inl rfl) rfl (ix1 p)
      = ∑ k : Fin 128, v (ix2 p k) := by
  refine (Ideal.multiReduction_add_single v _ reduces_S384x128_S384 _ _ (ix1 p)).trans ?_
  refine Finset.sum_congr rfl fun k _ => congrArg v ?_
  funext b
  match b with
  | ⟨0, _⟩ => rfl
  | ⟨1, _⟩ => rfl

/-- An [8] array viewed as an [8, 1] column reads, at (a, z), the operand at a. -/
theorem col8_apply {α : Type} (v : S8.Idx → α) (a : Fin 8) (z : Fin 1) :
    shapeCast S8x1 v shapeCasts_S8_S8x1 (ix2 a z) = v (ix1 a) :=
  shapeCast_apply v _ (ix2 a z) (ix1 a) (by
    have hz : z.val = 0 := by omega
    rw [Shape.rowMajor_val_one, Shape.rowMajor_val_two]
    show a.val = a.val * 1 + z.val
    rw [hz, Nat.mul_one, Nat.add_zero])

/-- A [384] array viewed as a [384, 1] column reads, at (p, z), the operand at p. -/
theorem col384_apply {α : Type} (v : S384.Idx → α) (p : Fin 384) (z : Fin 1) :
    shapeCast S384x1 v shapeCasts_S384_S384x1 (ix2 p z) = v (ix1 p) :=
  shapeCast_apply v _ (ix2 p z) (ix1 p) (by
    have hz : z.val = 0 := by omega
    rw [Shape.rowMajor_val_one, Shape.rowMajor_val_two]
    show p.val = p.val * 1 + z.val
    rw [hz, Nat.mul_one, Nat.add_zero])

/-- An [8, 1] column repeated along 384 columns reads, at (a, p), the column at a. -/
theorem bcastCol_apply {α : Type} (v : S8x1.Idx → α) (a : Fin 8) (p : Fin 384) :
    broadcastTo S8x384 v broadcasts_S8x1_S8x384 (ix2 a p) = v (ix2 a (0 : Fin 1)) :=
  broadcastTo_apply v _ (ix2 a p) (ix2 a (0 : Fin 1)) fun b =>
    match b with
    | ⟨0, _⟩ => rfl
    | ⟨1, _⟩ => rfl

/-- The operand indices of the contraction at output (a, p) and lane q: (a, q) on the left … -/
theorem cross_lhs_0 (i : S8x384.Idx) (q : dot_S8x128_S128x384_S8x384_1_0_0_1_n_n.contr.Idx) :
    (dot_S8x128_S128x384_S8x384_1_0_0_1_n_n.lhsIdx i q 0).val = (i 0).val := by
  unfold DotDims.lhsIdx
  rw [dif_neg (show ¬(0 : Fin S8x128.rank) ∈ dot_S8x128_S128x384_S8x384_1_0_0_1_n_n.lhsBatch by decide),
    dif_pos (show (0 : Fin S8x128.rank) ∈ dot_S8x128_S128x384_S8x384_1_0_0_1_n_n.lhsNonContracting by decide)]
  rfl
theorem cross_lhs_1 (i : S8x384.Idx) (q : dot_S8x128_S128x384_S8x384_1_0_0_1_n_n.contr.Idx) :
    (dot_S8x128_S128x384_S8x384_1_0_0_1_n_n.lhsIdx i q 1).val = (q ⟨0, by decide⟩).val :=
  dot_S8x128_S128x384_S8x384_1_0_0_1_n_n.lhsIdx_val_of_single rfl i q
/-- … and (q, p) on the right. -/
theorem cross_rhs_0 (i : S8x384.Idx) (q : dot_S8x128_S128x384_S8x384_1_0_0_1_n_n.contr.Idx) :
    (dot_S8x128_S128x384_S8x384_1_0_0_1_n_n.rhsIdx i q 0).val = (q ⟨0, by decide⟩).val :=
  dot_S8x128_S128x384_S8x384_1_0_0_1_n_n.rhsIdx_val_of_single rfl i q
theorem cross_rhs_1 (i : S8x384.Idx) (q : dot_S8x128_S128x384_S8x384_1_0_0_1_n_n.contr.Idx) :
    (dot_S8x128_S128x384_S8x384_1_0_0_1_n_n.rhsIdx i q 1).val = (i 1).val := by
  unfold DotDims.rhsIdx
  rw [dif_neg (show ¬(1 : Fin S128x384.rank) ∈ dot_S8x128_S128x384_S8x384_1_0_0_1_n_n.rhsBatch by decide),
    dif_pos (show (1 : Fin S128x384.rank) ∈ dot_S8x128_S128x384_S8x384_1_0_0_1_n_n.rhsNonContracting by decide)]
  rfl

/-- The contraction of an 8 x 128 block with a 128 x 384 array into a zero accumulator, at (a, p):
    the sum over the 128 lanes of the products. -/
theorem cross_apply (u : FVec Ideal S8x128 .f32) (w : FVec Ideal S128x384 .f32) (a : Fin 8) (p : Fin 384) :
    matmul dot_S8x128_S128x384_S8x384_1_0_0_1_n_n (some .fp32) u w (constant S8x384 .f32 0x00000000#32) (ix2 a p)
      = ∑ k : Fin 128, u (ix2 a k) * w (ix2 k p) := by
  simp only [matmul]
  rw [Ideal.matmul_constant_zero_apply,
    ← Equiv.sum_comp (contrEquiv1 dot_S8x128_S128x384_S8x384_1_0_0_1_n_n 128 rfl rfl).symm]
  refine Finset.sum_congr rfl fun k _ => ?_
  have hk := contrEquiv1_symm_val dot_S8x128_S128x384_S8x384_1_0_0_1_n_n 128 rfl rfl k
  have el : dot_S8x128_S128x384_S8x384_1_0_0_1_n_n.lhsIdx (ix2 a p)
      ((contrEquiv1 dot_S8x128_S128x384_S8x384_1_0_0_1_n_n 128 rfl rfl).symm k) = ix2 a k :=
    funext fun b => Fin.ext (by
      match b with
      | ⟨0, _⟩ => exact cross_lhs_0 _ _
      | ⟨1, _⟩ => exact (cross_lhs_1 _ _).trans hk)
  have er : dot_S8x128_S128x384_S8x384_1_0_0_1_n_n.rhsIdx (ix2 a p)
      ((contrEquiv1 dot_S8x128_S128x384_S8x384_1_0_0_1_n_n 128 rfl rfl).symm k) = ix2 k p :=
    funext fun b => Fin.ext (by
      match b with
      | ⟨0, _⟩ => exact (cross_rhs_0 _ _).trans hk
      | ⟨1, _⟩ => exact cross_rhs_1 _ _)
  rw [el, er]

/-- The 384 x 128 matrix transposed reads, at (k, p), the matrix at (p, k). -/
theorem tmat_apply {α : Type} (v : S384x128.Idx → α) (k : Fin 128) (p : Fin 384) :
    transpose S128x384 [1, 0] v transposes_S384x128_p1_0_S128x384 (ix2 k p) = v (ix2 p k) :=
  transpose_ix2_apply v _ k p

/-- So the contraction of the block with the transposed matrix, at (a, p), is the inner product of
    block row a and matrix row p. -/
theorem crossT_apply (u : FVec Ideal S8x128 .f32) (v : FVec Ideal S384x128 .f32) (a : Fin 8) (p : Fin 384) :
    matmul dot_S8x128_S128x384_S8x384_1_0_0_1_n_n (some .fp32) u
        (transpose S128x384 [1, 0] v transposes_S384x128_p1_0_S128x384) (constant S8x384 .f32 0x00000000#32) (ix2 a p)
      = ∑ k : Fin 128, u (ix2 a k) * v (ix2 p k) :=
  (cross_apply u _ a p).trans
    (Finset.sum_congr rfl fun k _ => congrArg (fun z => u (ix2 a k) * z) (tmat_apply v k p))

/-- The body's literal 2 is the specification's. -/
theorem two_eq : (FloatOps.ofBits .f32 0x40000000#32 : Ideal .f32) = Cert.Triplet.two := rfl

/-- The body's literal 0 is the extended real 0. -/
theorem zero_eq : (FloatOps.ofBits .f32 0x00000000#32 : Ideal .f32) = (0 : EReal) := Ideal.ofBits_zero_f32

/-! ## The distance block -/

/-- The [8, 384] block of clamped squared distances at (a, p): the specification's distance of rows
    8t + a and p. -/
theorem pay6_apply (t : Fin 48) (x0 : Vec Ideal S8x128 .f32) (x1 : Vec Ideal S384x128 .f32) (x : S384x128.Idx → EReal)
    (hx0 : ∀ (a : Fin 8) (k : Fin 128), x0 (ix2 a k) = x (ix2 (row t a) k)) (hx1 : x1 = x)
    (a : Fin 8) (p : Fin 384) :
    k0_pay6 (F := Ideal) x0 x1 (ix2 a p) = Cert.Triplet.dist x (row t a) p := by
  subst hx1
  unfold k0_pay6
  simp only [maximumf_apply, subf_apply, addf_apply, mulf_apply, broadcast_apply]
  rw [bcastCol_apply, col8_apply, laneSum8_apply, broadcastTo_1b_ab_apply, transpose_ix2_apply, col384_apply,
    laneSum384_apply, crossT_apply, two_eq, zero_eq]
  simp only [mulf_apply, hx0]
  rfl

/-! ## The two repetitions of the distance block -/

/-- An [8, 384] array viewed as [8, 384, 1] reads, at (a, p, z), the operand at (a, p). -/
theorem castLast_apply {α : Type} (v : S8x384.Idx → α) (a : Fin 8) (p : Fin 384) (z : Fin 1) :
    shapeCast S8x384x1 v shapeCasts_S8x384_S8x384x1 (ix3 a p z) = v (ix2 a p) :=
  shapeCast_apply v _ (ix3 a p z) (ix2 a p) (by
    have hz : z.val = 0 := by omega
    rw [Shape.rowMajor_val_two, Shape.rowMajor_val_three]
    show a.val * 384 + p.val = (a.val * 384 + p.val) * 1 + z.val
    rw [hz, Nat.mul_one, Nat.add_zero])

/-- An [8, 384] array viewed as [8, 1, 384] reads, at (a, z, n), the operand at (a, n). -/
theorem castMid_apply {α : Type} (v : S8x384.Idx → α) (a : Fin 8) (z : Fin 1) (n : Fin 384) :
    shapeCast S8x1x384 v shapeCasts_S8x384_S8x1x384 (ix3 a z n) = v (ix2 a n) :=
  shapeCast_apply v _ (ix3 a z n) (ix2 a n) (by
    have hz : z.val = 0 := by omega
    rw [Shape.rowMajor_val_two, Shape.rowMajor_val_three]
    show a.val * 384 + n.val = (a.val * 1 + z.val) * 384 + n.val
    rw [hz, Nat.mul_one, Nat.add_zero])

/-- An [8, 384, 1] array repeated along the last axis reads, at (a, p, n), the operand at (a, p, 0). -/
theorem bcastLast_apply {α : Type} (v : S8x384x1.Idx → α) (a : Fin 8) (p n : Fin 384) :
    broadcastTo S8x384x384 v broadcasts_S8x384x1_S8x384x384 (ix3 a p n) = v (ix3 a p (0 : Fin 1)) :=
  broadcastTo_apply v _ (ix3 a p n) (ix3 a p (0 : Fin 1)) fun b =>
    match b with
    | ⟨0, _⟩ => rfl
    | ⟨1, _⟩ => rfl
    | ⟨2, _⟩ => rfl

/-- An [8, 1, 384] array repeated along the middle axis reads, at (a, p, n), the operand at (a, 0, n). -/
theorem bcastMid_apply {α : Type} (v : S8x1x384.Idx → α) (a : Fin 8) (p n : Fin 384) :
    broadcastTo S8x384x384 v broadcasts_S8x1x384_S8x384x384 (ix3 a p n) = v (ix3 a (0 : Fin 1) n) :=
  broadcastTo_apply v _ (ix3 a p n) (ix3 a (0 : Fin 1) n) fun b =>
    match b with
    | ⟨0, _⟩ => rfl
    | ⟨1, _⟩ => rfl
    | ⟨2, _⟩ => rfl

/-- Repeated along a new last axis, entry (a, p, n) is the distance of rows 8t + a and p. -/
theorem pay10_apply (t : Fin 48) (x0 : Vec Ideal S8x128 .f32) (x1 : Vec Ideal S384x128 .f32) (x : S384x128.Idx → EReal)
    (hx0 : ∀ (a : Fin 8) (k : Fin 128), x0 (ix2 a k) = x (ix2 (row t a) k)) (hx1 : x1 = x)
    (a : Fin 8) (p n : Fin 384) :
    k0_pay10 (F := Ideal) x0 x1 (ix3 a p n) = Cert.Triplet.dist x (row t a) p := by
  unfold k0_pay10
  exact ((bcastLast_apply _ a p n).trans (castLast_apply _ a p 0)).trans (pay6_apply t x0 x1 x hx0 hx1 a p)

/-- Repeated along a new middle axis, entry (a, p, n) is the distance of rows 8t + a and n. -/
theorem pay11_apply (t : Fin 48) (x0 : Vec Ideal S8x128 .f32) (x1 : Vec Ideal S384x128 .f32) (x : S384x128.Idx → EReal)
    (hx0 : ∀ (a : Fin 8) (k : Fin 128), x0 (ix2 a k) = x (ix2 (row t a) k)) (hx1 : x1 = x)
    (a : Fin 8) (p n : Fin 384) :
    k0_pay11 (F := Ideal) x0 x1 (ix3 a p n) = Cert.Triplet.dist x (row t a) n := by
  unfold k0_pay11
  exact ((bcastMid_apply _ a p n).trans (castMid_apply _ a 0 n)).trans (pay6_apply t x0 x1 x hx0 hx1 a n)

end Cert.KernelIdeal.Val

end
-- ==== Proof.KIMask.lean ====
/-
  The two validity masks of the triplet kernel's body, read at an index.

  At grid step t the body holds the labels of rows 8t .. 8t+7 as a column and all 384 labels as a row. The positive mask
  at (a, p) is 1 when row p has the anchor's label and p is not the anchor's own row 8t + a; the negative mask at (a, n)
  is 1 when row n has another label. Each is a one-bit word, widened to 32 bits and read as a signed integer: the word 1
  gives the number 1, the word 0 gives 0. Their product over (a, p, n) is the positive indicator of (8t + a, p) times the
  negative indicator of (8t + a, n) of the specification.
-/
import proofs.«127347_j76373108458148_2_alg».proof.Proof.Gen.KernelIdeal.Skeleton
import proofs.«127347_j76373108458148_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The value of a one-bit word widened to 32 bits and read as a signed integer. -/
def bit (b : BitVec 1) : EReal := FloatOps.sitofp (F := Ideal) .f32 (b.setWidth 32)

theorem bit_one : bit 1#1 = 1 := by
  show (((((1#1 : BitVec 1).setWidth 32).toInt : ℤ) : ℝ) : EReal) = 1
  have h : ((1#1 : BitVec 1).setWidth 32).toInt = 1 := by decide
  rw [h]; simp

theorem bit_zero : bit 0#1 = 0 := by
  show (((((0#1 : BitVec 1).setWidth 32).toInt : ℤ) : ℝ) : EReal) = 0
  have h : ((0#1 : BitVec 1).setWidth 32).toInt = 0 := by decide
  rw [h]; simp

/-- The row offset of a grid step plus a row within the step, as 32-bit words, is the word of the sum. -/
theorem word_row (t a : Nat) (ht : t < 48) (ha : a < 8) :
    IntOp.addi (Scalar.muli (BitVec.ofNat 32 t) 8#32) (BitVec.ofNat 32 a) = BitVec.ofNat 32 (8 * t + a) := by
  apply BitVec.eq_of_toNat_eq
  show ((BitVec.ofNat 32 t * 8#32) + BitVec.ofNat 32 a).toNat = _
  simp only [BitVec.toNat_add, BitVec.toNat_mul, BitVec.toNat_ofNat]
  omega

theorem word_inj (m p : Nat) (hm : m < 384) (hp : p < 384) :
    (BitVec.ofNat 32 m = BitVec.ofNat 32 p) ↔ m = p := by
  constructor
  · intro h
    have := congrArg BitVec.toNat h
    simp only [BitVec.toNat_ofNat] at this
    omega
  · intro h; rw [h]

section Layout
variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-- The label comparison at `(a, p)`: the anchor's label against row `p`'s. -/
theorem pay7_apply (x2 : Vec Ideal S8x1 .i32) (x3 : Vec Ideal S1x384 .i32) (a : Fin 8) (p : Fin 384) :
    k0_pay7 (F := Ideal) x2 x3 (ix2 a p) = IntOp.cmpi .eq (x2 (ix2 a 0)) (x3 (ix2 0 p)) := by
  unfold k0_pay7
  rw [shapeCast_self, shapeCast_self]
  show IntOp.cmpi .eq (broadcastTo S8x384 x2 _ (ix2 a p)) (broadcastTo S8x384 x3 _ (ix2 a p)) = _
  rw [broadcastTo_a1_ab_apply, broadcastTo_1b_ab_apply]

/-- The positive mask at `(a, p)`: same label, and `p` is not the anchor's own row. -/
theorem pay8_apply (i : grid0.Coords) (x2 : Vec Ideal S8x1 .i32) (x3 : Vec Ideal S1x384 .i32) (a : Fin 8) (p : Fin 384) :
    k0_pay8 (F := Ideal) i x2 x3 (ix2 a p)
      = IntOp.andi (IntOp.cmpi .eq (x2 (ix2 a 0)) (x3 (ix2 0 p)))
          (IntOp.cmpi .ne (IntOp.addi (Scalar.muli (BitVec.ofNat 32 (i 0).val) 8#32) (BitVec.ofNat 32 a.val)) (BitVec.ofNat 32 p.val)) := by
  unfold k0_pay8
  show IntOp.andi (k0_pay7 (F := Ideal) x2 x3 (ix2 a p))
      (IntOp.cmpi .ne (IntOp.addi (Scalar.muli (BitVec.ofNat 32 (i 0).val) 8#32) (iota .tc S8x384 32 [0] _ (ix2 a p)))
        (iota .tc S8x384 32 [1] _ (ix2 a p))) = _
  rw [pay7_apply, iota_single_apply, iota_single_apply]

/-- The negative mask at `(a, n)`: the complement of the label comparison. -/
theorem pay9_apply (x2 : Vec Ideal S8x1 .i32) (x3 : Vec Ideal S1x384 .i32) (a : Fin 8) (n : Fin 384) :
    k0_pay9 (F := Ideal) x2 x3 (ix2 a n) = IntOp.xori (IntOp.cmpi .eq (x2 (ix2 a 0)) (x3 (ix2 0 n))) 1#1 := by
  unfold k0_pay9
  show IntOp.xori (k0_pay7 (F := Ideal) x2 x3 (ix2 a n)) 1#1 = _
  rw [pay7_apply]

/-- The product of the two masks, as numbers, at `(a, p, n)`. -/
theorem pay1_bits (v35 v36 : IVec S8x384 1) (a : Fin 8) (p n : Fin 384) :
    k0_pay1 (F := Ideal) v35 v36 (ix3 a p n) = bit (v35 (ix2 a p)) * bit (v36 (ix2 a n)) := by
  unfold k0_pay1
  rw [mulf_apply, broadcastTo_ab1_abc_apply, broadcastTo_a1c_abc_apply, shapeCast_ab_ab1_apply, shapeCast_ab_a1b_apply]
  rfl

/-- The two comparisons of a positive, as a number: 1 exactly when the words agree and the naturals differ. -/
theorem bit_pos (u v : BitVec 32) (m p : Nat) (hm : m < 384) (hp : p < 384) :
    bit (IntOp.andi (IntOp.cmpi .eq u v) (IntOp.cmpi .ne (BitVec.ofNat 32 m) (BitVec.ofNat 32 p)))
      = if u = v ∧ m ≠ p then 1 else 0 := by
  have h1 : IntOp.cmpi .eq u v = BitVec.ofBool (decide (u = v)) := by
    show BitVec.ofBool (u == v) = _
    rw [beq_eq_decide]
  have h2 : IntOp.cmpi .ne (BitVec.ofNat 32 m) (BitVec.ofNat 32 p) = BitVec.ofBool (decide (m ≠ p)) := by
    show BitVec.ofBool (BitVec.ofNat 32 m != BitVec.ofNat 32 p) = _
    congr 1
    show (!(BitVec.ofNat 32 m == BitVec.ofNat 32 p)) = decide (¬ m = p)
    rw [beq_eq_decide, decide_not]
    congr 1
    exact decide_eq_decide.2 (word_inj m p hm hp)
  rw [h1, h2]
  by_cases huv : u = v <;> by_cases hmp : m = p
  · rw [decide_eq_true huv, decide_eq_false (not_not.2 hmp)]
    show bit 0#1 = _
    rw [bit_zero, if_neg (fun h => h.2 hmp)]
  · rw [decide_eq_true huv, decide_eq_true hmp]
    show bit 1#1 = _
    rw [bit_one, if_pos ⟨huv, hmp⟩]
  · rw [decide_eq_false huv]
    cases decide (m ≠ p) <;>
    · show bit 0#1 = _
      rw [bit_zero, if_neg (fun h => huv h.1)]
  · rw [decide_eq_false huv]
    cases decide (m ≠ p) <;>
    · show bit 0#1 = _
      rw [bit_zero, if_neg (fun h => huv h.1)]

/-- The complemented comparison of a negative, as a number: 0 exactly when the words agree. -/
theorem bit_neg (u v : BitVec 32) :
    bit (IntOp.xori (IntOp.cmpi .eq u v) 1#1) = if u = v then 0 else 1 := by
  have h1 : IntOp.cmpi .eq u v = BitVec.ofBool (decide (u = v)) := by
    show BitVec.ofBool (u == v) = _
    rw [beq_eq_decide]
  rw [h1]
  by_cases huv : u = v
  · rw [decide_eq_true huv, if_pos huv]
    show bit 0#1 = _
    exact bit_zero
  · rw [decide_eq_false huv, if_neg huv]
    show bit 1#1 = _
    exact bit_one

/-- At grid step `t`, the mask product at `(a, p, n)` is the positive indicator of `(8t + a, p)` times the negative
    indicator of `(8t + a, n)`. -/
theorem pay1_apply (i : grid0.Coords) (t : Fin 48) (hi : (i 0).val = t.val) (x2 : Vec Ideal S8x1 .i32) (x3 : Vec Ideal S1x384 .i32)
    (y : S384.Idx → BitVec 32)
    (hx2 : ∀ a : Fin 8, x2 (ix2 a 0) = y (ix1 ⟨8 * t.val + a.val, by omega⟩)) (hx3 : ∀ p : Fin 384, x3 (ix2 0 p) = y (ix1 p))
    (a : Fin 8) (p n : Fin 384) :
    k0_pay1 (F := Ideal) (k0_pay8 i x2 x3) (k0_pay9 x2 x3) (ix3 a p n)
      = Cert.Triplet.posI y ⟨8 * t.val + a.val, by omega⟩ p * Cert.Triplet.negI y ⟨8 * t.val + a.val, by omega⟩ n := by
  rw [pay1_bits, pay8_apply, pay9_apply, hi, word_row t.val a.val t.isLt a.isLt, hx2, hx3, hx3,
    bit_pos _ _ _ _ (by omega) p.isLt, bit_neg]
  unfold Cert.Triplet.posI Cert.Triplet.negI
  congr 1
  refine if_congr (and_congr Iff.rfl (not_congr ?_)) rfl rfl
  exact ⟨fun h => Fin.ext h, fun h => congrArg Fin.val h⟩

end Cert.KernelIdeal.Val

end
-- ==== Proof.KIFold.lean ====
/-
  The kernel's result on the extended reals. One grid point adds to the triplet-sum accumulator the
  sum over its 8 anchors of each anchor's share of the loss sum, and to the count accumulator the
  anchors' shares of the count; starting from zero, after the 48 points the accumulators hold the sums
  over all 384 anchors (48 blocks of 8 rows are the 384 rows), and the host's quotient of the two is
  the mean over the valid triplets.
-/
import proofs.«127347_j76373108458148_2_alg».proof.Proof.KIBlocks
import proofs.«127347_j76373108458148_2_alg».proof.Proof.KIReduce
import proofs.«127347_j76373108458148_2_alg».proof.Proof.KIDist
import proofs.«127347_j76373108458148_2_alg».proof.Proof.KIMask
import proofs.«127347_j76373108458148_2_alg».proof.Proof.Spec
import Idealize.ShloMosaic.PureOps.Ideal.Laws

set_option maxRecDepth 16384

noncomputable section

namespace Cert.KernelIdeal.Val

open Idealize.ShloMosaic Idealize.ShloMosaic.TcCoe Idealize.ShloMosaic.ValueIdx Idealize.ShloMosaic.Pipeline
open Idealize.SL.Sem
open Cert.KernelIdeal Cert.KernelIdeal.Gen Cert.KernelIdeal.Fr

/-! ## One grid point -/

section Step
variable (i : grid0.Coords) (t : Fin 48) (hi : (i 0).val = t.val)
  (x0 : Vec Ideal S8x128 .f32) (x1 : Vec Ideal S384x128 .f32) (x2 : Vec Ideal S8x1 .i32) (x3 : Vec Ideal S1x384 .i32)
  (x : S384x128.Idx → EReal) (y : S384.Idx → BitVec 32)
  (hx0 : ∀ (a : Fin 8) (k : Fin 128), x0 (ix2 a k) = x (ix2 ⟨8 * t.val + a.val, by omega⟩ k)) (hx1 : x1 = x)
  (hx2 : ∀ a : Fin 8, x2 (ix2 a 0) = y (ix1 ⟨8 * t.val + a.val, by omega⟩)) (hx3 : ∀ p : Fin 384, x3 (ix2 0 p) = y (ix1 p))

include hi hx0 hx1 hx2 hx3 in
theorem step5_eq (a5 : Vec Ideal S1x1 .f32) (j : S1x1.Idx) :
    step5 (F := Ideal) i x0 x1 x2 x3 a5 j
      = a5 (ix2 0 0) + ∑ a : Fin 8, Cert.Triplet.rowTotal x y ⟨8 * t.val + a.val, by omega⟩ := by
  unfold step5
  rw [pay2_apply]
  refine congrArg (a5 (ix2 0 0) + ·) (Finset.sum_congr rfl fun a _ => ?_)
  unfold Cert.Triplet.rowTotal
  refine Finset.sum_congr rfl fun p _ => Finset.sum_congr rfl fun n _ => ?_
  rw [pay10_apply t x0 x1 x hx0 hx1 a p n, pay11_apply t x0 x1 x hx0 hx1 a p n, pay1_apply i t hi x2 x3 y hx2 hx3 a p n]
  rfl

include hi hx2 hx3 in
theorem step6_eq (a6 : Vec Ideal S1x1 .f32) (j : S1x1.Idx) :
    step6 (F := Ideal) i x2 x3 a6 j
      = a6 (ix2 0 0) + ∑ a : Fin 8, Cert.Triplet.rowCount y ⟨8 * t.val + a.val, by omega⟩ := by
  unfold step6
  rw [pay3_apply]
  refine congrArg (a6 (ix2 0 0) + ·) (Finset.sum_congr rfl fun a _ => ?_)
  unfold Cert.Triplet.rowCount
  refine Finset.sum_congr rfl fun p _ => Finset.sum_congr rfl fun n _ => ?_
  exact pay1_apply i t hi x2 x3 y hx2 hx3 a p n

end Step

/-! ## 48 blocks of 8 rows are the 384 rows -/

theorem sum_blocks (f : Fin 384 → EReal) :
    ∑ t : Fin 48, ∑ a : Fin 8, f ⟨8 * t.val + a.val, by omega⟩ = ∑ r : Fin 384, f r := by
  rw [← Fintype.sum_prod_type (f := fun p : Fin 48 × Fin 8 => f ⟨8 * p.1.val + p.2.val, by omega⟩)]
  exact Fintype.sum_equiv (finProdFinEquiv : Fin 48 × Fin 8 ≃ Fin (48 * 8)) _ _
    (fun p => congrArg f (Fin.ext (by simp only [finProdFinEquiv_apply_val]; omega)))

/-! ## The accumulators after each point -/

section Acc
variable (m : (ℓ : Loc nD τ sig) → Buf (Elt Ideal) ℓ) (ρ : Dev nD → PrngReg) (c : Dev nD)

/-- The feature matrix and the labels as launched. -/
abbrev feat : S384x128.Idx → EReal := m ((c : Thread nD τ).loc main_arg0)
abbrev labels : S384.Idx → BitVec 32 := m ((c : Thread nD τ).loc main_arg2)

theorem hN : cfg0.N = 48 := N_0

/-- The labels' column and row as the region finds them. -/
theorem labelsCol_apply (r : Fin 384) : (V1 m ρ c main_v0 : S384x1.Idx → BitVec 32) (ix2 r 0) = labels m c (ix1 r) := by
  rw [V1_v0]
  exact shapeCast_apply _ _ (ix2 r 0) (ix1 r) (by rw [Shape.rowMajor_val_one, Shape.rowMajor_val_two]; simp)
theorem labelsRow_apply (p : Fin 384) : (V1 m ρ c main_v1 : S1x384.Idx → BitVec 32) (ix2 0 p) = labels m c (ix1 p) := by
  rw [V1_v1]
  exact shapeCast_apply _ _ (ix2 0 p) (ix1 p) (by rw [Shape.rowMajor_val_one, Shape.rowMajor_val_two]; simp)

/-- The blocks of point `t` against the launched arrays. -/
theorem blk0 (t : Fin cfg0.N) (a : Fin 8) (k : Fin 128) :
    iblk (V1 m ρ) c 0 t (ix2 a k) = feat m c (ix2 ⟨8 * t.val + a.val, by have := t.isLt; have := hN; omega⟩ k) :=
  (iblk0_apply (V1 m ρ) c t (ix2 a k) (ix2 ⟨8 * t.val + a.val, by have := t.isLt; have := hN; omega⟩ k)
    (by show 8 * t.val + a.val = t.val * 8 + a.val; omega) rfl).trans (congrFun (V1_arg0 m ρ c) _)
theorem blk1 (t : Fin cfg0.N) : iblk (V1 m ρ) c 1 t = feat m c :=
  funext fun j => (iblk1_apply (V1 m ρ) c t j).trans (congrFun (V1_arg0 m ρ c) _)
theorem blk2 (t : Fin cfg0.N) (a : Fin 8) :
    iblk (V1 m ρ) c 2 t (ix2 a 0) = labels m c (ix1 ⟨8 * t.val + a.val, by have := t.isLt; have := hN; omega⟩) :=
  (iblk2_apply (V1 m ρ) c t (ix2 a 0) (ix2 ⟨8 * t.val + a.val, by have := t.isLt; have := hN; omega⟩ 0)
    (by show 8 * t.val + a.val = t.val * 8 + a.val; omega) rfl).trans (labelsCol_apply m ρ c _)
theorem blk3 (t : Fin cfg0.N) (p : Fin 384) : iblk (V1 m ρ) c 3 t (ix2 0 p) = labels m c (ix1 p) :=
  (iblk3_apply (V1 m ρ) c t (ix2 0 p)).trans (labelsRow_apply m ρ c p)

/-- The zero the first point stores. -/
theorem pay4_zero : k0_pay4 (F := Ideal) (ix2 0 0) = 0 := by
  show Ideal.ofBits .f32 0x00000000#32 = 0
  exact Ideal.ofBits_zero_f32
theorem pay5_zero : k0_pay5 (F := Ideal) (ix2 0 0) = 0 := by
  show Ideal.ofBits .f32 0x00000000#32 = 0
  exact Ideal.ofBits_zero_f32

/-- After point `n` the accumulators hold the first `n + 1` blocks' shares. -/
theorem acc_eq : ∀ (n : ℕ) (hn : n < cfg0.N),
    (outsAt (V1 m ρ) c n hn).1 (ix2 0 0)
        = ∑ t : Fin (n + 1), ∑ a : Fin 8, Cert.Triplet.rowTotal (feat m c) (labels m c) ⟨8 * t.val + a.val, by have := t.isLt; have := hN; omega⟩
    ∧ (outsAt (V1 m ρ) c n hn).2 (ix2 0 0)
        = ∑ t : Fin (n + 1), ∑ a : Fin 8, Cert.Triplet.rowCount (labels m c) ⟨8 * t.val + a.val, by have := t.isLt; have := hN; omega⟩
  | 0, hn => by
    rw [outsAt_zero]
    dsimp only
    rw [step5_eq (grid0.coords ⟨0, hn⟩) ⟨0, by decide⟩ (coord_eq ⟨0, hn⟩) _ _ _ _ (feat m c) (labels m c)
        (fun a k => blk0 m ρ c ⟨0, hn⟩ a k) (blk1 m ρ c ⟨0, hn⟩) (fun a => blk2 m ρ c ⟨0, hn⟩ a) (fun p => blk3 m ρ c ⟨0, hn⟩ p),
      step6_eq (grid0.coords ⟨0, hn⟩) ⟨0, by decide⟩ (coord_eq ⟨0, hn⟩) _ _ (labels m c)
        (fun a => blk2 m ρ c ⟨0, hn⟩ a) (fun p => blk3 m ρ c ⟨0, hn⟩ p),
      pay4_zero, pay5_zero]
    exact ⟨(zero_add _).trans (Fin.sum_univ_one (fun t : Fin (0 + 1) => ∑ a : Fin 8,
        Cert.Triplet.rowTotal (feat m c) (labels m c) ⟨8 * t.val + a.val, by have := t.isLt; omega⟩)).symm,
      (zero_add _).trans (Fin.sum_univ_one (fun t : Fin (0 + 1) => ∑ a : Fin 8,
        Cert.Triplet.rowCount (labels m c) ⟨8 * t.val + a.val, by have := t.isLt; omega⟩)).symm⟩
  | n + 1, hn => by
    obtain ⟨ih5, ih6⟩ := acc_eq n (Nat.lt_of_succ_lt hn)
    have hn48 : n + 1 < 48 := lt_of_lt_of_eq hn hN
    rw [outsAt_succ]
    dsimp only
    rw [step5_eq (grid0.coords ⟨n + 1, hn⟩) ⟨n + 1, hn48⟩ (coord_eq ⟨n + 1, hn⟩) _ _ _ _ (feat m c) (labels m c)
        (fun a k => blk0 m ρ c ⟨n + 1, hn⟩ a k) (blk1 m ρ c ⟨n + 1, hn⟩) (fun a => blk2 m ρ c ⟨n + 1, hn⟩ a) (fun p => blk3 m ρ c ⟨n + 1, hn⟩ p),
      step6_eq (grid0.coords ⟨n + 1, hn⟩) ⟨n + 1, hn48⟩ (coord_eq ⟨n + 1, hn⟩) _ _ (labels m c)
        (fun a => blk2 m ρ c ⟨n + 1, hn⟩ a) (fun p => blk3 m ρ c ⟨n + 1, hn⟩ p),
      ih5, ih6, Fin.sum_univ_castSucc (n := n + 1), Fin.sum_univ_castSucc (n := n + 1)]
    exact ⟨rfl, rfl⟩

/-- A 1x1 matrix read as a scalar. -/
theorem cast_11_0 (v : S1x1.Idx → EReal) (h : S1x1.ShapeCasts S_) (s : S_.Idx) : shapeCast S_ v h s = v (ix2 0 0) :=
  shapeCast_apply v h s (ix2 0 0) (by
    have h1 : (S_.rowMajor s).val < 1 := (S_.rowMajor s).isLt
    have h3 : (S1x1.rowMajor (ix2 0 0)).val = 0 := by rw [Shape.rowMajor_val_two]; simp
    omega)

/-- The returned scalar is the mean over the valid triplets. -/
theorem result_eq : (W3 m ρ c (Proc.devRef .tc main_v5) : S_.Idx → EReal)
    = fun _ => Cert.Triplet.result (feat m c) (labels m c) := by
  rw [W3_v5, final4, final5]
  funext s
  obtain ⟨h5, h6⟩ := acc_eq m ρ c 47 h47
  show Ideal.div (shapeCast S_ (outsAt (V1 m ρ) c 47 h47).1 Facts₀.shapeCasts_S1x1_S_ s)
      (shapeCast S_ (outsAt (V1 m ρ) c 47 h47).2 Facts₀.shapeCasts_S1x1_S_ s) = _
  rw [cast_11_0, cast_11_0, h5, h6]
  unfold Cert.Triplet.result Cert.Triplet.total Cert.Triplet.count
  rw [← sum_blocks (Cert.Triplet.rowTotal (feat m c) (labels m c)), ← sum_blocks (Cert.Triplet.rowCount (labels m c))]

end Acc

/-- THE KERNEL'S RUN, READ: every weakly fair execution ends with the returned scalar at the mean over
    the valid triplets of the launched arrays, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = (fun _ => Cert.Triplet.result (feat m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (Cert.KernelIdeal.Fr.run m ρ)

end Cert.KernelIdeal.Val

end
-- ==== Proof.RefIsSpec.lean ====
/-
  The reference program's result is the batch-all triplet loss of the specification, at the ideal instance.

  Stage by stage: the row sums of squares are the squared norms; the contraction of the array with its
  transpose is the Gram matrix; their clamped combination is the squared distance; the label comparison,
  the diagonal test (row numbers below 384 compared as 32-bit words) and their conjunctions are the
  positive and negative indicators; selecting the hinge by the validity bit is multiplying it by the two
  indicators, and the validity bit read as a number is their product; the sums over all rank-3 indices
  are the triple sums over the coordinates; the quotient of the two sums is the result.
-/
import proofs.«127347_j76373108458148_2_alg».proof.Proof.Gen.ReferenceIdeal.Read
import proofs.«127347_j76373108458148_2_alg».proof.Proof.Spec
import Idealize.ShloMosaic.Lib.ValueIdx
import Idealize.ShloMosaic.PureOps.Ideal.Laws
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Triplet

/-- The row sums of squares: the sum with a zero initial value over the 128 columns of the squared entries. -/
theorem rowSq_apply (x0 : (⟨S384x128, .f32⟩ : BufTy).Contents (Elt Ideal)) (i : Fin 384) :
    val_main_v1 (F := Ideal) x0 (ix1 i) = rowSq x0 i := by
  rw [val_main_v1_apply, val_main_cst_apply, Ideal.ofBits_def, Ideal.ofBits_zero_f32, zero_add]
  unfold rowSq
  refine Finset.sum_congr rfl fun k _ => ?_
  have e : idx_main_v1 (ix1 i) k = ix2 i k :=
    funext fun a => Fin.ext (by match a with | ⟨0, _⟩ => rfl | ⟨1, _⟩ => rfl)
  rw [val_main_v0_apply, e, Ideal.mulf_def]

/-- The inner product of rows i and j: the contraction of the array with its transpose. -/
theorem gram_apply (x0 : (⟨S384x128, .f32⟩ : BufTy).Contents (Elt Ideal)) (i j : Fin 384) :
    val_main_v8 (F := Ideal) x0 (ix2 i j) = gram x0 i j := by
  rw [val_main_v8_apply]
  unfold gram
  refine Finset.sum_congr rfl fun k _ => ?_
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [val_main_v7_apply, el, er]

/-- The clamped squared distance of rows i and j. -/
theorem dist_apply (x0 : (⟨S384x128, .f32⟩ : BufTy).Contents (Elt Ideal)) (i j : Fin 384) :
    val_main_v13 (F := Ideal) x0 (ix2 i j) = dist x0 i j := by
  have e4 : idx_main_v2 (idx_main_v4 (ix2 i j)) = ix1 i :=
    funext fun a => Fin.ext (by match a with | ⟨0, _⟩ => rfl)
  have e5 : idx_main_v3 (idx_main_v5 (ix2 i j)) = ix1 j :=
    funext fun a => Fin.ext (by match a with | ⟨0, _⟩ => rfl)
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, e4, e5, rowSq_apply, rowSq_apply, gram_apply]
  simp only [Ideal.ofBits_def, Ideal.maximumf_def, Ideal.subf_def, Ideal.addf_def, Ideal.mulf_def,
    Ideal.ofBits_zero_f32]
  rfl

/-- Equality of two 32-bit words as a one-bit word. -/
theorem cmpi_eq_ite (a b : BitVec 32) : IntOp.cmpi .eq a b = if a = b then 1#1 else 0#1 := by
  unfold IntOp.cmpi
  by_cases h : a = b
  · subst h
    simp
  · have hb : (a == b) = false := beq_eq_false_iff_ne.mpr h
    simp [h, hb]

/-- Two row numbers below 384 are equal as 32-bit words exactly when they are equal. -/
theorem word_eq_iff (i j : Fin 384) : BitVec.ofNat 32 i.val = BitVec.ofNat 32 j.val ↔ i = j := by
  constructor
  · intro h
    have h' := congrArg BitVec.toNat h
    rw [BitVec.toNat_ofNat, BitVec.toNat_ofNat] at h'
    have hi := i.isLt
    have hj := j.isLt
    exact Fin.ext (by omega)
  · rintro rfl; rfl

/-- The label comparison at (i, j). -/
theorem same_apply (x2 : (⟨S384, .i32⟩ : BufTy).Contents (Elt Ideal)) (i j : Fin 384) :
    val_main_v18 (F := Ideal) x2 (ix2 i j) = if x2 (ix1 i) = x2 (ix1 j) then 1#1 else 0#1 := by
  have e1 : idx_main_v14 (idx_main_v16 (ix2 i j)) = ix1 i :=
    funext fun a => Fin.ext (by match a with | ⟨0, _⟩ => rfl)
  have e2 : idx_main_v15 (idx_main_v17 (ix2 i j)) = ix1 j :=
    funext fun a => Fin.ext (by match a with | ⟨0, _⟩ => rfl)
  rw [val_main_v18_apply, val_main_v16_apply, val_main_v14_apply, val_main_v17_apply, val_main_v15_apply,
    e1, e2, cmpi_eq_ite]

/-- The diagonal test at (i, j). -/
theorem diag_apply (i j : Fin 384) :
    val_main_v23 (F := Ideal) (ix2 i j) = if i = j then 1#1 else 0#1 := by
  rw [val_main_v23_apply, val_main_v22_apply, val_main_v19_apply, val_main_v20_apply, val_main_v21_apply,
    val_main_c_apply, cmpi_eq_ite]
  have e : IntOp.addi (BitVec.ofNat 32 (ix2 i j 0).val) 0#32 = BitVec.ofNat 32 i.val := by
    unfold IntOp.addi
    rw [BitVec.add_zero]
  rw [e]
  show (if BitVec.ofNat 32 i.val = BitVec.ofNat 32 j.val then 1#1 else 0#1) = _
  by_cases h : i = j
  · rw [if_pos h, if_pos ((word_eq_iff i j).mpr h)]
  · rw [if_neg h, if_neg (fun h' => h ((word_eq_iff i j).mp h'))]

/-- The positive mask at (i, j): same label and another row. -/
theorem pos_apply (x2 : (⟨S384, .i32⟩ : BufTy).Contents (Elt Ideal)) (i j : Fin 384) :
    val_main_v25 (F := Ideal) x2 (ix2 i j)
      = if x2 (ix1 i) = x2 (ix1 j) ∧ i ≠ j then 1#1 else 0#1 := by
  rw [val_main_v25_apply, val_main_v24_apply, same_apply, diag_apply]
  unfold IntOp.andi
  by_cases h1 : x2 (ix1 i) = x2 (ix1 j) <;> by_cases h2 : i = j <;> simp [h1, h2]

/-- The negative mask at (i, k): another label. -/
theorem neg_apply (x2 : (⟨S384, .i32⟩ : BufTy).Contents (Elt Ideal)) (i k : Fin 384) :
    val_main_v26 (F := Ideal) x2 (ix2 i k)
      = if x2 (ix1 i) = x2 (ix1 k) then 0#1 else 1#1 := by
  rw [val_main_v26_apply, same_apply]
  by_cases h1 : x2 (ix1 i) = x2 (ix1 k) <;> simp [h1]

/-- The validity bit of the triplet (i, j, k). -/
theorem valid_apply (x2 : (⟨S384, .i32⟩ : BufTy).Contents (Elt Ideal)) (i j k : Fin 384) :
    val_main_v39 (F := Ideal) x2 (ix3 i j k)
      = IntOp.andi (if x2 (ix1 i) = x2 (ix1 j) ∧ i ≠ j then 1#1 else 0#1)
          (if x2 (ix1 i) = x2 (ix1 k) then 0#1 else 1#1) := by
  have e1 : idx_main_v35 (idx_main_v37 (ix3 i j k)) = ix2 i j :=
    funext fun a => Fin.ext (by match a with | ⟨0, _⟩ => rfl | ⟨1, _⟩ => rfl)
  have e2 : idx_main_v36 (idx_main_v38 (ix3 i j k)) = ix2 i k :=
    funext fun a => Fin.ext (by match a with | ⟨0, _⟩ => rfl | ⟨1, _⟩ => rfl)
  rw [val_main_v39_apply, val_main_v37_apply, val_main_v35_apply, val_main_v38_apply, val_main_v36_apply,
    e1, e2, pos_apply, neg_apply]

/-- Selecting by a conjunction of two decided bits is multiplying by the two indicators. -/
theorem select_mask (P Q : Prop) [Decidable P] [Decidable Q] (t : EReal) :
    Scalar.select (IntOp.andi (if P then 1#1 else 0#1) (if Q then 0#1 else 1#1)) t 0
      = t * ((if P then (1 : EReal) else 0) * (if Q then (0 : EReal) else 1)) := by
  unfold IntOp.andi Scalar.select
  by_cases hP : P <;> by_cases hQ : Q <;> simp [hP, hQ]

/-- The conjunction of two decided bits, read as an unsigned number, is the product of the two indicators. -/
theorem uitofp_mask (P Q : Prop) [Decidable P] [Decidable Q] :
    FloatOps.uitofp (F := Ideal) .f32 (IntOp.andi (if P then 1#1 else 0#1) (if Q then 0#1 else 1#1))
      = (if P then (1 : EReal) else 0) * (if Q then (0 : EReal) else 1) := by
  unfold IntOp.andi
  show (((_ : BitVec 1).toNat : ℝ) : EReal) = _
  by_cases hP : P <;> by_cases hQ : Q <;> simp [hP, hQ]

/-- The hinge of the triplet (i, j, k). -/
theorem trip_apply (x0 : (⟨S384x128, .f32⟩ : BufTy).Contents (Elt Ideal)) (i j k : Fin 384) :
    val_main_v34 (F := Ideal) x0 (ix3 i j k) = trip x0 i j k := by
  have e1 : idx_main_v27 (idx_main_v29 (ix3 i j k)) = ix2 i j :=
    funext fun a => Fin.ext (by match a with | ⟨0, _⟩ => rfl | ⟨1, _⟩ => rfl)
  have e2 : idx_main_v28 (idx_main_v30 (ix3 i j k)) = ix2 i k :=
    funext fun a => Fin.ext (by match a with | ⟨0, _⟩ => rfl | ⟨1, _⟩ => rfl)
  rw [val_main_v34_apply, val_main_v33_apply, val_main_v31_apply, val_main_v29_apply, val_main_v27_apply,
    val_main_v30_apply, val_main_v28_apply, val_main_v32_apply, val_main_cst_2_apply,
    val_main_call0_v0_apply, val_main_call0_cst_apply, e1, e2, dist_apply, dist_apply]
  simp only [Ideal.ofBits_def, Ideal.maximumf_def, Ideal.subf_def, Ideal.addf_def, Ideal.ofBits_zero_f32]
  rfl

/-- The masked hinge of the triplet (i, j, k). -/
theorem summand_apply (x0 : (⟨S384x128, .f32⟩ : BufTy).Contents (Elt Ideal))
    (x2 : (⟨S384, .i32⟩ : BufTy).Contents (Elt Ideal)) (i j k : Fin 384) :
    val_main_v40 (F := Ideal) x0 x2 (ix3 i j k) = trip x0 i j k * (posI x2 i j * negI x2 i k) := by
  rw [val_main_v40_apply, valid_apply, trip_apply, val_main_call1_v1_apply, val_main_call1_v0_apply,
    val_main_cst_3_apply, Ideal.ofBits_def, Ideal.ofBits_zero_f32, select_mask]
  rfl

/-- The validity of the triplet (i, j, k) as a number. -/
theorem counted_apply (x2 : (⟨S384, .i32⟩ : BufTy).Contents (Elt Ideal)) (i j k : Fin 384) :
    val_main_v42 (F := Ideal) x2 (ix3 i j k) = posI x2 i j * negI x2 i k := by
  rw [val_main_v42_apply, valid_apply, uitofp_mask]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference program computes the mean hinge over the valid triplets. -/
theorem ref_is_spec (x0 : (⟨S384x128, .f32⟩ : BufTy).Contents (Elt Ideal))
    (x2 : (⟨S384, .i32⟩ : BufTy).Contents (Elt Ideal)) :
    Cert.ReferenceIdeal.Read.val_main_v44 (F := Ideal) x0 x2 = fun _ => Cert.Triplet.result x0 x2 := by
  funext s
  rw [val_main_v44_apply, val_main_v41_apply, val_main_v43_apply, val_main_cst_4_apply, val_main_cst_5_apply,
    Ideal.hostDivf_def, Ideal.ofBits_def, Ideal.ofBits_zero_f32, zero_add, zero_add, sum_idx3, sum_idx3]
  unfold Cert.Triplet.result Cert.Triplet.total Cert.Triplet.count Cert.Triplet.rowTotal Cert.Triplet.rowCount
  have ht : (∑ a : Fin 384, ∑ b : Fin 384, ∑ c : Fin 384, val_main_v40 (F := Ideal) x0 x2 (ix3 a b c))
      = ∑ i : Fin 384, ∑ j : Fin 384, ∑ k : Fin 384, trip x0 i j k * (posI x2 i j * negI x2 i k) :=
    Finset.sum_congr rfl fun i _ => Finset.sum_congr rfl fun j _ => Finset.sum_congr rfl fun k _ =>
      summand_apply x0 x2 i j k
  have hc : (∑ a : Fin 384, ∑ b : Fin 384, ∑ c : Fin 384, val_main_v42 (F := Ideal) x2 (ix3 a b c))
      = ∑ i : Fin 384, ∑ j : Fin 384, ∑ k : Fin 384, posI x2 i j * negI x2 i k :=
    Finset.sum_congr rfl fun i _ => Finset.sum_congr rfl fun j _ => Finset.sum_congr rfl fun k _ =>
      counted_apply x2 i j k
  rw [ht, hc]

end Cert.ReferenceIdeal.RefValue

end
-- ==== Proof.lean ====
/-
  The certificate of the batch-all triplet loss kernel against its jnp reference.

  The kernel walks the 384 anchors in 48 blocks of 8. At each grid point it forms the block's squared
  distances to all rows, d(a,p) = max(|x_a|^2 + |x_p|^2 - 2 <x_a, x_p>, 0), the hinges
  max(d(a,p) - d(a,n) + margin, 0) over all pairs (p, n), masks them with the 0/1 factors "p has the
  anchor's label and is another row" and "n has another label", and adds the block's sum and the
  block's count of valid triplets into two 1x1 accumulators that it zeroes at the first point; the
  host divides the two. The reference forms the same hinges over all 384^3 triplets at once, selects
  the valid ones, sums them, counts them and divides.

  On the extended reals both are Spec.lean's mean: a selected sum is the masked sum because z * 1 = z
  and z * 0 = 0 for every extended real z, and the sum over 48 blocks of 8 anchors is the sum over the
  384 anchors by commutativity and associativity of addition alone, so the precondition (finite inputs)
  is never opened. The three frames: each program terminates on every weakly fair execution, faults
  nowhere and leaves its arguments as launched; for the kernel this is the pipelined region's run
  (the feature array stands behind two windows, which hold half of its share each) between two
  stretches of host lines. The ideal pass rewrote nothing, so the idealization conjunct is trivial.
-/
import proofs.«127347_j76373108458148_2_alg».proof.Defs
import proofs.«127347_j76373108458148_2_alg».proof.Proof.Gen.Kernel
import proofs.«127347_j76373108458148_2_alg».proof.Proof.Gen.KernelIdeal
import proofs.«127347_j76373108458148_2_alg».proof.Proof.Gen.ReferenceIdeal
import proofs.«127347_j76373108458148_2_alg».proof.Proof.Gen.Pre_finite_inputs
import proofs.«127347_j76373108458148_2_alg».proof.Proof.Gen.ReferenceIdeal.Run
import proofs.«127347_j76373108458148_2_alg».proof.Proof.Gen.ReferenceIdeal.Read
import proofs.«127347_j76373108458148_2_alg».proof.Proof.KLaunch
import proofs.«127347_j76373108458148_2_alg».proof.Proof.KIFold
import proofs.«127347_j76373108458148_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_p : Cert.frame_Kernel := fun m ρ _ => Cert.Kernel.Fr.frame (F := Bits) m ρ
/-- So does its idealization. -/
theorem frame_pi : Cert.frame_KernelIdeal := fun m ρ _ => Cert.KernelIdeal.Fr.frame (F := Ideal) m ρ
/-- The reference is host lines only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the mean over the valid triplets of the arrays they were
    launched on, and those arrays agree. -/
theorem algebraic : Cert.algebraic_KernelIdeal_ReferenceIdeal := by
  intro m ρ m' ρ' _ hagree
  refine ⟨fun c => fun _ => Cert.Triplet.result (Cert.KernelIdeal.Val.feat m c) (Cert.KernelIdeal.Val.labels m c),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.ref_is_spec, (hagree c).1, (hagree c).2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
